-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x4096x1024 .f32) (main_arg1 : FVec F S8x4096x1024 .f32) (main_arg2 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8x4096x1024 : Shape := ⟨3, ![8, 4096, 1024]⟩
abbrev S1024x1024 : Shape := ⟨2, ![1024, 1024]⟩
abbrev S24 : Shape := ⟨1, ![24]⟩
abbrev S32768x1024 : Shape := ⟨2, ![32768, 1024]⟩
abbrev S32768x1 : Shape := ⟨2, ![32768, 1]⟩
abbrev S1024x1 : Shape := ⟨2, ![1024, 1]⟩
abbrev S1024 : Shape := ⟨1, ![1024]⟩
abbrev S_ : Shape := ⟨0, ![]⟩
abbrev S24x1 : Shape := ⟨2, ![24, 1]⟩
abbrev S24x1024 : Shape := ⟨2, ![24, 1024]⟩
abbrev S24x2 : Shape := ⟨2, ![24, 2]⟩
abbrev S8x4096 : Shape := ⟨2, ![8, 4096]⟩
abbrev S8x4095 : Shape := ⟨2, ![8, 4095]⟩
abbrev S8x4094 : Shape := ⟨2, ![8, 4094]⟩
abbrev S8x4094x1 : Shape := ⟨3, ![8, 4094, 1]⟩
abbrev S8x4094x2 : Shape := ⟨3, ![8, 4094, 2]⟩
abbrev S8x4093x1 : Shape := ⟨3, ![8, 4093, 1]⟩
abbrev S8x4093 : Shape := ⟨2, ![8, 4093]⟩
abbrev S8 : Shape := ⟨1, ![8]⟩

abbrev nBuf : Space → Nat
  | .hbm => 130
  | .vmem => 9
  | .smem => 0
  | _ => 0

abbrev hbmTy0_0 (i : Nat) : BufTy := match i % 128 with
  | 0 => ⟨S8x4096x1024, .f32⟩
  | 1 => ⟨S8x4096x1024, .f32⟩
  | 2 => ⟨S1024x1024, .f32⟩
  | 3 => ⟨S24, .i32⟩
  | 4 => ⟨S24, .i32⟩
  | 5 => ⟨S32768x1024, .f32⟩
  | 6 => ⟨S32768x1024, .f32⟩
  | 7 => ⟨S1024x1024, .bf16⟩
  | 8 => ⟨S1024x1024, .bf16⟩
  | 9 => ⟨S32768x1, .f32⟩
  | 10 => ⟨S32768x1, .f32⟩
  | 11 => ⟨S_, .i32⟩
  | 12 => ⟨S24, .i32⟩
  | 13 => ⟨S24, .i32⟩
  | 14 => ⟨S_, .i32⟩
  | 15 => ⟨S24, .i32⟩
  | 16 => ⟨S24, .i1⟩
  | 17 => ⟨S_, .i32⟩
  | 18 => ⟨S24, .i32⟩
  | 19 => ⟨S24, .i32⟩
  | 20 => ⟨S24, .i32⟩
  | 21 => ⟨S24x1, .i32⟩
  | 22 => ⟨S24x1024, .f32⟩
  | 23 => ⟨S24x1024, .bf16⟩
  | 24 => ⟨S24x1024, .f32⟩
  | 25 => ⟨S_, .i32⟩
  | 26 => ⟨S24, .i32⟩
  | 27 => ⟨S24, .i1⟩
  | 28 => ⟨S_, .i32⟩
  | 29 => ⟨S24, .i32⟩
  | 30 => ⟨S24, .i32⟩
  | 31 => ⟨S24, .i32⟩
  | 32 => ⟨S24x1, .i32⟩
  | 33 => ⟨S24x1024, .f32⟩
  | 34 => ⟨S24x1024, .f32⟩
  | 35 => ⟨S_, .f32⟩
  | 36 => ⟨S24, .f32⟩
  | 37 => ⟨S_, .i32⟩
  | 38 => ⟨S24, .i32⟩
  | 39 => ⟨S24, .i1⟩
  | 40 => ⟨S_, .i32⟩
  | 41 => ⟨S24, .i32⟩
  | 42 => ⟨S24, .i32⟩
  | 43 => ⟨S24, .i32⟩
  | 44 => ⟨S_, .i32⟩
  | 45 => ⟨S24, .i32⟩
  | 46 => ⟨S24, .i32⟩
  | 47 => ⟨S24x1, .i32⟩
  | 48 => ⟨S24x1, .i32⟩
  | 49 => ⟨S24x2, .i32⟩
  | 50 => ⟨S32768x1, .f32⟩
  | 51 => ⟨S_, .i32⟩
  | 52 => ⟨S24, .i32⟩
  | 53 => ⟨S24, .i32⟩
  | 54 => ⟨S_, .i32⟩
  | 55 => ⟨S24, .i32⟩
  | 56 => ⟨S24, .i1⟩
  | 57 => ⟨S_, .i32⟩
  | 58 => ⟨S24, .i32⟩
  | 59 => ⟨S24, .i32⟩
  | 60 => ⟨S24, .i32⟩
  | 61 => ⟨S24x1, .i32⟩
  | 62 => ⟨S24x1024, .f32⟩
  | 63 => ⟨S24x1024, .bf16⟩
  | 64 => ⟨S24x1024, .f32⟩
  | 65 => ⟨S_, .i32⟩
  | 66 => ⟨S24, .i32⟩
  | 67 => ⟨S24, .i1⟩
  | 68 => ⟨S_, .i32⟩
  | 69 => ⟨S24, .i32⟩
  | 70 => ⟨S24, .i32⟩
  | 71 => ⟨S24, .i32⟩
  | 72 => ⟨S24x1, .i32⟩
  | 73 => ⟨S24x1024, .f32⟩
  | 74 => ⟨S24x1024, .f32⟩
  | 75 => ⟨S_, .f32⟩
  | 76 => ⟨S24, .f32⟩
  | 77 => ⟨S_, .i32⟩
  | 78 => ⟨S24, .i32⟩
  | 79 => ⟨S24, .i1⟩
  | 80 => ⟨S_, .i32⟩
  | 81 => ⟨S24, .i32⟩
  | 82 => ⟨S24, .i32⟩
  | 83 => ⟨S24, .i32⟩
  | 84 => ⟨S_, .i32⟩
  | 85 => ⟨S24, .i32⟩
  | 86 => ⟨S24, .i32⟩
  | 87 => ⟨S24x1, .i32⟩
  | 88 => ⟨S24x1, .i32⟩
  | 89 => ⟨S24x2, .i32⟩
  | 90 => ⟨S32768x1, .f32⟩
  | 91 => ⟨S8x4096, .f32⟩
  | 92 => ⟨S8x4096, .f32⟩
  | 93 => ⟨S8x4095, .f32⟩
  | 94 => ⟨S8x4095, .f32⟩
  | 95 => ⟨S8x4094, .f32⟩
  | 96 => ⟨S8x4094, .f32⟩
  | 97 => ⟨S8x4094x1, .f32⟩
  | 98 => ⟨S8x4094x1, .f32⟩
  | 99 => ⟨S8x4094x2, .f32⟩
  | 100 => ⟨S_, .f32⟩
  | 101 => ⟨S8x4094, .f32⟩
  | 102 => ⟨S_, .f32⟩
  | 103 => ⟨S8x4094, .f32⟩
  | 104 => ⟨S8x4094, .f32⟩
  | 105 => ⟨S8x4094x1, .f32⟩
  | 106 => ⟨S8x4094x2, .f32⟩
  | 107 => ⟨S8x4094x2, .f32⟩
  | 108 => ⟨S8x4094x2, .f32⟩
  | 109 => ⟨S_, .f32⟩
  | 110 => ⟨S8x4094, .f32⟩
  | 111 => ⟨S8x4094x1, .f32⟩
  | 112 => ⟨S8x4094x2, .f32⟩
  | 113 => ⟨S8x4094x2, .f32⟩
  | 114 => ⟨S8x4093x1, .f32⟩
  | 115 => ⟨S8x4093, .f32⟩
  | 116 => ⟨S8x4093x1, .f32⟩
  | 117 => ⟨S8x4093, .f32⟩
  | 118 => ⟨S8x4093, .f32⟩
  | 119 => ⟨S_, .f32⟩
  | 120 => ⟨S8x4093, .f32⟩
  | 121 => ⟨S8x4093, .f32⟩
  | 122 => ⟨S8x4093, .f32⟩
  | 123 => ⟨S_, .f32⟩
  | 124 => ⟨S8x4093, .f32⟩
  | 125 => ⟨S8x4093, .f32⟩
  | 126 => ⟨S8x4093, .f32⟩
  | 127 => ⟨S_, .f32⟩
  | _ => ⟨S8x4096x1024, .f32⟩

abbrev hbmTy0_1 (i : Nat) : BufTy := match i % 128 with
  | 0 => ⟨S8, .f32⟩
  | 1 => ⟨S8, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_12 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_c_15 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_17 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_cst_19 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_20 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_21 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_22 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_23 : Ref sig .tc := ⟨.hbm, 127, rfl⟩
abbrev main_v98 : Ref sig .tc := ⟨.hbm, 128, rfl⟩
abbrev main_v99 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x1024_S32768x1024 : S8x4096x1024.ShapeCasts S32768x1024
  bitsLt_bf16_f32 : FTy.bits .bf16 < FTy.bits .f32
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  rotates_S1024x1024_d0 : S1024x1024.Rotates 0 none
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  bcast_S_S24 : S_.BroadcastsInDim S24 (![] : Fin 0 → Fin S24.rank)
  bcast_S24_S24x1_0 : S24.BroadcastsInDim S24x1 (![0] : Fin 1 → Fin S24x1.rank)
  reducesTo_S24x1024_S24_d1 : S24x1024.ReducesTo [1] S24
  h_S_ : 0 < S_.numel
  concatenates_S24x1_S24x1_S24x2_d1 : Shape.Concatenates [S24x1, S24x1] S24x2 1
  shapeCasts_S32768x1_S8x4096 : S32768x1.ShapeCasts S8x4096
  slices_S8x4096_S8x4095_0_1 : S8x4096.Slices ![0, 1] S8x4095
  slices_S8x4096_S8x4095_0_0 : S8x4096.Slices ![0, 0] S8x4095
  slices_S8x4095_S8x4094_0_0 : S8x4095.Slices ![0, 0] S8x4094
  slices_S8x4095_S8x4094_0_1 : S8x4095.Slices ![0, 1] S8x4094
  bcast_S8x4094_S8x4094x1_0_1 : S8x4094.BroadcastsInDim S8x4094x1 (![0, 1] : Fin 2 → Fin S8x4094x1.rank)
  concatenates_S8x4094x1_S8x4094x1_S8x4094x2_d2 : Shape.Concatenates [S8x4094x1, S8x4094x1] S8x4094x2 2
  reducesTo_S8x4094x2_S8x4094_d2 : S8x4094x2.ReducesTo [2] S8x4094
  bcast_S_S8x4094 : S_.BroadcastsInDim S8x4094 (![] : Fin 0 → Fin S8x4094.rank)
  bcast_S8x4094x1_S8x4094x2_0_1_2 : S8x4094x1.BroadcastsInDim S8x4094x2 (![0, 1, 2] : Fin 3 → Fin S8x4094x2.rank)
  slices_S8x4094x2_S8x4093x1_0_0_1 : S8x4094x2.Slices ![0, 0, 1] S8x4093x1
  shapeCasts_S8x4093x1_S8x4093 : S8x4093x1.ShapeCasts S8x4093
  slices_S8x4094x2_S8x4093x1_0_1_0 : S8x4094x2.Slices ![0, 1, 0] S8x4093x1
  bcast_S_S8x4093 : S_.BroadcastsInDim S8x4093 (![] : Fin 0 → Fin S8x4093.rank)
  reducesTo_S8x4093_S8_d1 : S8x4093.ReducesTo [1] S8
  dot_S1024x1024_S1024x1024_S1024x1024_1_0_0_1_n_n_wf : DotDims.WF S1024x1024 S1024x1024 S1024x1024 [1] [0] [0] [1] [] []
  gather_S32768x1024_S24x1_S24x1024_1_0_n_n_0_1_11024_wf : GatherDims.WF S32768x1024 S24x1 S24x1024 [1] [0] [] [0] [] 1 ![1, 1024]
  dot_S24x1024_S1024x1024_S24x1024_1_0_0_1_n_n_wf : DotDims.WF S24x1024 S1024x1024 S24x1024 [1] [0] [0] [1] [] []
  scatter_S32768x1_S24x2_S24_n_01_01_1_wf : ScatterDims.WF S32768x1 S24x2 S24 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S32768x1.size a
  hwx0_4 : ∀ i : grid0.Coords, EltTy.bits .f32 = 32 ∨ (Rect.block (s := S32768x1) S1024x1.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S32768x1024_S24x1_S24x1024_1_0_n_n_0_1_11024 : GatherDims S32768x1024 S24x1 S24x1024 where
  offsetDims := [1]
  collapsedSliceDims := [0]
  operandBatchingDims := []
  startIndicesBatchingDims := []
  startIndexMap := [0]
  indexVectorDim := 1
  sliceSizes := ![1, 1024]
  wf := gather_S32768x1024_S24x1_S24x1024_1_0_n_n_0_1_11024_wf
def dot_S24x1024_S1024x1024_S24x1024_1_0_0_1_n_n : DotDims S24x1024 S1024x1024 S24x1024 where
  lhsContracting := [1]
  rhsContracting := [0]
  lhsNonContracting := [0]
  rhsNonContracting := [1]
  lhsBatch := []
  rhsBatch := []
  wf := dot_S24x1024_S1024x1024_S24x1024_1_0_0_1_n_n_wf
def scatter_S32768x1_S24x2_S24_n_01_01_1 : ScatterDims S32768x1 S24x2 S24 where
  updateWindowDims := []
  insertedWindowDims := [0, 1]
  scatterDimsToOperandDims := [0, 1]
  indexVectorDim := 1
  wf := scatter_S32768x1_S24x2_S24_n_01_01_1_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S8x4095x1024 : Shape := ⟨3, ![8, 4095, 1024]⟩
abbrev S_ : Shape := ⟨0, ![]⟩
abbrev S8x4095 : Shape := ⟨2, ![8, 4095]⟩
abbrev S8x4094 : Shape := ⟨2, ![8, 4094]⟩
abbrev S8x4094x1 : Shape := ⟨3, ![8, 4094, 1]⟩
abbrev S8x4094x2 : Shape := ⟨3, ![8, 4094, 2]⟩
abbrev S8x4093x1 : Shape := ⟨3, ![8, 4093, 1]⟩
abbrev S8x4093 : Shape := ⟨2, ![8, 4093]⟩
abbrev S8 : Shape := ⟨1, ![8]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S8x4096x1024, .f32⟩
  | .hbm, ⟨4, _⟩ => ⟨S8x4095x1024, .f32⟩
  | .hbm, ⟨5, _⟩ => ⟨S8x4095x1024, .f32⟩
  | .hbm, ⟨6, _⟩ => ⟨S8x4095x1024, .f32⟩
  | .hbm, ⟨7, _⟩ => ⟨S_, .f32⟩
  | .hbm, ⟨8, _⟩ => ⟨S8x4095, .f32⟩
  | .hbm, ⟨9, _⟩ => ⟨S8x4095x1024, .f32⟩
  | .hbm, ⟨10, _⟩ => ⟨S8x4095x1024, .f32⟩
  | .hbm, ⟨11, _⟩ => ⟨S8x4095x1024, .f32⟩
  | .hbm, ⟨12, _⟩ => ⟨S_, .f32⟩
  | .hbm, ⟨13, _⟩ => ⟨S8x4095, .f32⟩
  | .hbm, ⟨14, _⟩ => ⟨S8x4094, .f32⟩
  | .hbm, ⟨15, _⟩ => ⟨S8x4094, .f32⟩
  | .hbm, ⟨16, _⟩ => ⟨S8x4094x1, .f32⟩
  | .hbm, ⟨17, _⟩ => ⟨S8x4094x1, .f32⟩
  | .hbm, ⟨18, _⟩ => ⟨S8x4094x2, .f32⟩
  | .hbm, ⟨19, _⟩ => ⟨S_, .f32⟩
  | .hbm, ⟨20, _⟩ => ⟨S8x4094, .f32⟩
  | .hbm, ⟨21, _⟩ => ⟨S_, .f32⟩
  | .hbm, ⟨22, _⟩ => ⟨S8x4094, .f32⟩
  | .hbm, ⟨23, _⟩ => ⟨S8x4094, .f32⟩
  | .hbm, ⟨24, _⟩ => ⟨S8x4094x1, .f32⟩
  | .hbm, ⟨25, _⟩ => ⟨S8x4094x2, .f32⟩
  | .hbm, ⟨26, _⟩ => ⟨S8x4094x2, .f32⟩
  | .hbm, ⟨27, _⟩ => ⟨S8x4094x2, .f32⟩
  | .hbm, ⟨28, _⟩ => ⟨S_, .f32⟩
  | .hbm, ⟨29, _⟩ => ⟨S8x4094, .f32⟩
  | .hbm, ⟨30, _⟩ => ⟨S8x4094x1, .f32⟩
  | .hbm, ⟨31, _⟩ => ⟨S8x4094x2, .f32⟩
  | .hbm, ⟨32, _⟩ => ⟨S8x4094x2, .f32⟩
  | .hbm, ⟨33, _⟩ => ⟨S8x4093x1, .f32⟩
  | .hbm, ⟨34, _⟩ => ⟨S8x4093, .f32⟩
  | .hbm, ⟨35, _⟩ => ⟨S8x4093x1, .f32⟩
  | .hbm, ⟨36, _⟩ => ⟨S8x4093, .f32⟩
  | .hbm, ⟨37, _⟩ => ⟨S8x4093, .f32⟩
  | .hbm, ⟨38, _⟩ => ⟨S_, .f32⟩
  | .hbm, ⟨39, _⟩ => ⟨S8x4093, .f32⟩
  | .hbm, ⟨40, _⟩ => ⟨S8x4093, .f32⟩
  | .hbm, ⟨41, _⟩ => ⟨S8x4093, .f32⟩
  | .hbm, ⟨42, _⟩ => ⟨S_, .f32⟩
  | .hbm, ⟨43, _⟩ => ⟨S8x4093, .f32⟩
  | .hbm, ⟨44, _⟩ => ⟨S8x4093, .f32⟩
  | .hbm, ⟨45, _⟩ => ⟨S8x4093, .f32⟩
  | .hbm, ⟨46, _⟩ => ⟨S_, .f32⟩
  | .hbm, ⟨47, _⟩ => ⟨S8, .f32⟩
  | .hbm, ⟨48, _⟩ => ⟨S8, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  slices_S8x4096x1024_S8x4095x1024_0_1_0 : S8x4096x1024.Slices ![0, 1, 0] S8x4095x1024
  slices_S8x4096x1024_S8x4095x1024_0_0_0 : S8x4096x1024.Slices ![0, 0, 0] S8x4095x1024
  reducesTo_S8x4095x1024_S8x4095_d2 : S8x4095x1024.ReducesTo [2] S8x4095
  h_S_ : 0 < S_.numel
  slices_S8x4095_S8x4094_0_0 : S8x4095.Slices ![0, 0] S8x4094
  slices_S8x4095_S8x4094_0_1 : S8x4095.Slices ![0, 1] S8x4094
  bcast_S8x4094_S8x4094x1_0_1 : S8x4094.BroadcastsInDim S8x4094x1 (![0, 1] : Fin 2 → Fin S8x4094x1.rank)
  concatenates_S8x4094x1_S8x4094x1_S8x4094x2_d2 : Shape.Concatenates [S8x4094x1, S8x4094x1] S8x4094x2 2
  reducesTo_S8x4094x2_S8x4094_d2 : S8x4094x2.ReducesTo [2] S8x4094
  bcast_S_S8x4094 : S_.BroadcastsInDim S8x4094 (![] : Fin 0 → Fin S8x4094.rank)
  bcast_S8x4094x1_S8x4094x2_0_1_2 : S8x4094x1.BroadcastsInDim S8x4094x2 (![0, 1, 2] : Fin 3 → Fin S8x4094x2.rank)
  slices_S8x4094x2_S8x4093x1_0_0_1 : S8x4094x2.Slices ![0, 0, 1] S8x4093x1
  shapeCasts_S8x4093x1_S8x4093 : S8x4093x1.ShapeCasts S8x4093
  slices_S8x4094x2_S8x4093x1_0_1_0 : S8x4094x2.Slices ![0, 1, 0] S8x4093x1
  bcast_S_S8x4093 : S_.BroadcastsInDim S8x4093 (![] : Fin 0 → Fin S8x4093.rank)
  reducesTo_S8x4093_S8_d1 : S8x4093.ReducesTo [1] S8
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.FrameKHost.lean ====
import proofs.«136613_j42906723287547_2_alg».proof.Proof.Gen.Kernel.Launch
import Idealize.ShloMosaic.Lib.Pipeline.FrameSuffix

/-!
# The host side of the frame: what the host operations around the region touch

The entry function is six host operations, one region, and a long straight line of host operations after it. Every
host operation writes exactly one buffer, its own result; the region's five arrays and the three arguments are
results of none of the later operations, and the arguments are results of none of the earlier ones. From these two
facts: the region finds the arguments as launched, the later operations leave the region's arrays alone, and the
arguments end as launched.
-/

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ) (ρ : Dev nD → PrngReg)

/-! ## The buffers' contents when the region is entered -/

/-- Core c's buffer contents when the region is entered: the launch contents after the six earlier host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-! ## One fact per host operation, stated once over each list -/

/-- The references whose buffers must survive the later host operations: the three arguments and the region's five
    arrays (the two reshaped inputs, the transposed weight, the two results). -/
def guarded : List (Ref sig .tc) :=
  [main_arg0, main_arg1, main_arg2, main_v0, main_v1, main_v3, main_v4_0, main_v4_1]

/-- What is asked of a host operation: it allocates nothing, and it writes exactly one buffer, which is none of the
    references in G. -/
def Tame (G : List (Ref sig .tc)) (op : HloOp τ sig (Elt F)) : Prop :=
  op.fresh = ∅ ∧ ∃ y : Ref sig .tc, op.writes = {Proc.devRef .tc y} ∧ y ∉ G

theorem Tame.fresh {G : List (Ref sig .tc)} {op : HloOp τ sig (Elt F)} (h : Tame G op) : op.fresh = ∅ := h.1

/-- A tame operation writes no buffer of a guarded reference. -/
theorem Tame.keeps {G : List (Ref sig .tc)} {op : HloOp τ sig (Elt F)} (h : Tame G op) {r : Ref sig .tc} (hr : r ∈ G) :
    Proc.devRef .tc r ∉ op.writes := by
  obtain ⟨-, y, hy, hn⟩ := h
  rw [hy, Finset.mem_singleton]
  exact StableHlo.devRef_ne_of_ne (fun e => hn (e ▸ hr))

/-- The six host operations before the region are tame for the arguments. -/
theorem hostOps0_tame : (hostOps0 : List (HloOp τ sig (Elt F))).Forall (Tame [main_arg0, main_arg1, main_arg2]) := by
  simp only [List.Forall]
  repeat' apply And.intro
  all_goals first | rfl | exact ⟨_, rfl, by decide⟩

set_option maxHeartbeats 40000000 in
/-- Every host operation after the region is tame for the arguments and the region's arrays. -/
theorem hostOps1_tame : (hostOps1 : List (HloOp τ sig (Elt F))).Forall (Tame guarded) := by
  simp only [List.Forall]
  repeat' apply And.intro
  all_goals first | rfl | exact ⟨_, rfl, by decide⟩

/-- A line of tame operations leaves every guarded buffer as it found it. -/
theorem after_tame {G : List (Ref sig .tc)} {ops : List (HloOp τ sig (Elt F))} (h : ops.Forall (Tame G))
    (W : Valuation τ sig (Elt F)) {r : Ref sig .tc} (hr : r ∈ G) :
    StableHlo.after ops W (Proc.devRef .tc r) = W (Proc.devRef .tc r) :=
  StableHlo.after_of_forall_not_mem ops W fun op hop => ((List.forall_iff_forall_mem.mp h) op hop).keeps hr

/-- A list of one line, flattened, is that line. -/
theorem flatten_one {α : Type} (l : List α) : List.flatten [l] = l := by
  rw [List.flatten_cons, List.flatten_nil, List.append_nil]

/-- Every array of the region is guarded. -/
theorem arr_guarded : ∀ w, Pipeline.arrRef spec0 w ∈ guarded := by decide

theorem hostOps0_fresh : (hostOps0 : List (HloOp τ sig (Elt F))).Forall fun op => op.fresh = ∅ :=
  List.forall_iff_forall_mem.mpr fun op hop => ((List.forall_iff_forall_mem.mp hostOps0_tame) op hop).fresh

theorem hostOps1_fresh : (hostOps1 : List (HloOp τ sig (Elt F))).Forall fun op => op.fresh = ∅ :=
  List.forall_iff_forall_mem.mpr fun op hop => ((List.forall_iff_forall_mem.mp hostOps1_tame) op hop).fresh

/-! ## The entry function around the region -/

/-- The entry function is the earlier host line, the region, the later host line: holding the unscoped buffers at the
    launch contents it reduces to the region continued by the later line, holding them at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later line touches only unscoped TensorCore buffers: with nothing prefetched these are exactly the region's
    arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact ((List.forall_iff_forall_mem.mp hostOps1_tame) op hop).fresh

/-- And it writes no array of the region: each operation writes its own result only, and no array is such a result. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact ((List.forall_iff_forall_mem.mp hostOps1_tame) op hop).keeps (arr_guarded w)

/-! ## The arguments: as launched when the region is entered, and at the end -/

/-- No earlier host operation writes an argument. -/
theorem V_arg {r : Ref sig .tc} (hr : r ∈ [main_arg0, main_arg1, main_arg2]) (c : Dev nD) :
    V m c r = m ((c : Thread nD τ).loc r) := by
  show StableHlo.after (List.flatten [hostOps0]) (fun b => m (c, b)) (Proc.devRef .tc r) = _
  rw [flatten_one, after_tame hostOps0_tame _ hr]

theorem V_main_arg0 (c : Dev nD) : V m c main_arg0 = m ((c : Thread nD τ).loc main_arg0) := V_arg m (by decide) c
theorem V_main_arg1 (c : Dev nD) : V m c main_arg1 = m ((c : Thread nD τ).loc main_arg1) := V_arg m (by decide) c
theorem V_main_arg2 (c : Dev nD) : V m c main_arg2 = m ((c : Thread nD τ).loc main_arg2) := V_arg m (by decide) c

/-- No later host operation writes an argument, and no argument is an array of the region: after the later line an
    argument holds what it held when the region was entered, which is what it was launched with. -/
theorem W_arg {r : Ref sig .tc} (hr : r ∈ [main_arg0, main_arg1, main_arg2]) (hg : r ∈ guarded)
    (hne : ∀ w, Pipeline.arrRef spec0 w ≠ r)
    (dats' : (p : Fin _) → (c : Dev nD) → Dat τ (Elt F) Unit ℕ (UR sig nD τ) ℕ (cfgs p) c) (c : Dev nD) :
    Pipeline.afterTail₀ cfgs dats' 0 (V0 m) [hostOps1] c r = m ((c : Thread nD τ).loc r) := by
  unfold Pipeline.afterTail₀
  rw [flatten_one, after_tame hostOps1_tame _ hg, Pipeline.withArrays_of_ne _ c (V0 m c) _ r hne]
  exact V_arg m hr c

theorem W_main_arg0 (dats' : (p : Fin _) → (c : Dev nD) → Dat τ (Elt F) Unit ℕ (UR sig nD τ) ℕ (cfgs p) c) (c : Dev nD) :
    Pipeline.afterTail₀ cfgs dats' 0 (V0 m) [hostOps1] c main_arg0 = m ((c : Thread nD τ).loc main_arg0) :=
  W_arg m (by decide) (by decide) (by decide) dats' c
theorem W_main_arg1 (dats' : (p : Fin _) → (c : Dev nD) → Dat τ (Elt F) Unit ℕ (UR sig nD τ) ℕ (cfgs p) c) (c : Dev nD) :
    Pipeline.afterTail₀ cfgs dats' 0 (V0 m) [hostOps1] c main_arg1 = m ((c : Thread nD τ).loc main_arg1) :=
  W_arg m (by decide) (by decide) (by decide) dats' c
theorem W_main_arg2 (dats' : (p : Fin _) → (c : Dev nD) → Dat τ (Elt F) Unit ℕ (UR sig nD τ) ℕ (cfgs p) c) (c : Dev nD) :
    Pipeline.afterTail₀ cfgs dats' 0 (V0 m) [hostOps1] c main_arg2 = m ((c : Thread nD τ).loc main_arg2) :=
  W_arg m (by decide) (by decide) (by decide) dats' c

end Cert.Kernel.Fr

end
-- ==== Proof.FrameK.lean ====
import proofs.«136613_j42906723287547_2_alg».proof.Proof.FrameKHost
import proofs.«136613_j42906723287547_2_alg».proof.Proof.Gen.Kernel.Launch
import proofs.«136613_j42906723287547_2_alg».proof.Proof.Gen.Kernel.Skeleton
import proofs.«136613_j42906723287547_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The frame of the program: its one region run at every grid point, between two host lines

The region has a static grid of 32 points and five windows. Windows 0 and 1 stage 1024 consecutive rows of the two
reshaped inputs at every point; window 2 stages the whole transposed weight, once; windows 3 and 4 are the two results,
a column of 1024 entries each, written back at every point. The body loads its three inputs whole, and stores each
result whole, once: so what it leaves in a result's buffer is one pure function of the three input blocks at the point,
whatever the buffer held before. With the host side (the sibling module), the library's frame run gives termination
without fault, every array of the region at what the proof data say, and every other unscoped buffer — the arguments
among them — at what the later host line leaves, which for the arguments is what they were launched with.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

/-- The whole of an input's staging buffer. -/
abbrev rIn : Rect S1024x1024 := Rect.unit (s := S1024x1024) ![0, 0] S1024x1024.size inb_S1024x1024_S1024x1024_0_0
/-- The whole of a result's staging buffer. -/
abbrev rOut : Rect S1024x1 := Rect.unit (s := S1024x1) ![0, 0] S1024x1.size inb_S1024x1_S1024x1_0_0

/-! ## What the body leaves in each result's buffer -/

/-- The first result's buffer after the body, from the three input blocks: its one store, of the row sums of the
    product of the projected rows with the key rows rotated down by one. -/
def outA (x0 x1 : Vec F S1024x1024 .f32) (x2 : Vec F S1024x1024 .bf16) : Vec F S1024x1 .f32 :=
  View.canon [⟨rOut, k0_pay3 (View.ld x0 rIn) (View.ld x2 rIn) (View.ld x1 rIn)⟩]

/-- The second result's buffer after the body: the same with the key rows rotated up by one. -/
def outB (x0 x1 : Vec F S1024x1024 .f32) (x2 : Vec F S1024x1024 .bf16) : Vec F S1024x1 .f32 :=
  View.canon [⟨rOut, k0_pay4 (View.ld x0 rIn) (View.ld x2 rIn) (View.ld x1 rIn)⟩]

/-- One store through the whole of a result's buffer covers it. -/
theorem coverOut (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

/-! ## The body's triple -/

set_option maxHeartbeats 4000000 in
/-- The body on whole staging buffers, the inputs' reading x0, x1, x2 and the results' holding anything, runs to
    the continuation with the inputs' as they were and the results' reading outA and outB of the inputs. The body
    reads each result's buffer once before storing into it and drops what it read. -/
theorem sound_kernel (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (x0 x1 : Vec F S1024x1024 .f32) (x2 : Vec F S1024x1024 .bf16) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
              ∗ owns (c : Thread nD τ) arg3 fullShare x2
              ∗ owns (c : Thread nD τ) arg4 fullShare (outA x0 x1 x2)
              ∗ owns (c : Thread nD τ) arg5 fullShare (outB x0 x1 x2)) -∗ K ⟨⟩))
      ⊢ wp frame (wpE (defs₀ (F := F)) Variants.none c none) E
          (cc0__extract_kernel i arg1 harg1 arg2 harg2 arg3 harg3 arg4 harg4 arg5 harg5) K := by
  simp only [cc0__extract_kernel_eq_skeleton]; unfold cc0__extract_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

/-! ## The proof data of the region -/

/-- The proof data of the region on core c: the arrays as the region finds them; after the body at point t each input's
    buffer still at its block and each result's at outA, outB of the three input blocks; the invariant the class's (the
    scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (iblk m c 0 t) (iblk m c 1 t) (iblk m c 2 t)
    | ⟨4, _⟩ => outB (iblk m c 0 t) (iblk m c 1 t) (iblk m c 2 t)
  Φ _ := Pipeline.ΦA spec0 c
  q _ := fullShare
  owed _ := 0

/-- The proof data's arrays are the region-entry contents (the definition projected, the entry contents never opened). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outA (iblk m c 0 t) (iblk m c 1 t) (iblk m c 2 t) := by dsimp only [dats]
theorem after_4 (c : Dev nD) (t : Fin cfg0.N) :
    (dats m 0 c).after 4 t = outB (iblk m c 0 t) (iblk m c 1 t) (iblk m c 2 t) := by dsimp only [dats]

/-- Each input's current staging buffer holds its block at every point, fetched there or not: an input the pipeline does
    not fetch at a point has the block index of the point before, and the body left that block in place. The windows
    are uncut and never idle. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of the entry function on the
    TensorCores terminates without fault, and every final state has every array of the region at what the library
    computes from the proof data and every other unscoped buffer as the later host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without fault and the three argument arrays end as launched. An
    argument is unscoped and is no array of the region, so the run's post reads it at what the later host line leaves,
    which is what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Kernel.Fr

end
-- ==== Proof.FrameKIHost.lean ====
import proofs.«136613_j42906723287547_2_alg».proof.Proof.Gen.KernelIdeal.Launch
import Idealize.ShloMosaic.Lib.Pipeline.FrameSuffix

/-!
# The host side of the frame: what the host operations around the region touch

The entry function is six host operations, one region, and a long straight line of host operations after it. Every
host operation writes exactly one buffer, its own result; the region's five arrays and the three arguments are
results of none of the later operations, and the arguments are results of none of the earlier ones. From these two
facts: the region finds the arguments as launched, the later operations leave the region's arrays alone, and the
arguments end as launched.
-/

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

variable (m : (ℓ : Loc nD τ sig) → Buf (Elt F) ℓ) (ρ : Dev nD → PrngReg)

/-! ## The buffers' contents when the region is entered -/

/-- Core c's buffer contents when the region is entered: the launch contents after the six earlier host operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-! ## One fact per host operation, stated once over each list -/

/-- The references whose buffers must survive the later host operations: the three arguments and the region's five
    arrays (the two reshaped inputs, the transposed weight, the two results). -/
def guarded : List (Ref sig .tc) :=
  [main_arg0, main_arg1, main_arg2, main_v0, main_v1, main_v3, main_v4_0, main_v4_1]

/-- What is asked of a host operation: it allocates nothing, and it writes exactly one buffer, which is none of the
    references in G. -/
def Tame (G : List (Ref sig .tc)) (op : HloOp τ sig (Elt F)) : Prop :=
  op.fresh = ∅ ∧ ∃ y : Ref sig .tc, op.writes = {Proc.devRef .tc y} ∧ y ∉ G

theorem Tame.fresh {G : List (Ref sig .tc)} {op : HloOp τ sig (Elt F)} (h : Tame G op) : op.fresh = ∅ := h.1

/-- A tame operation writes no buffer of a guarded reference. -/
theorem Tame.keeps {G : List (Ref sig .tc)} {op : HloOp τ sig (Elt F)} (h : Tame G op) {r : Ref sig .tc} (hr : r ∈ G) :
    Proc.devRef .tc r ∉ op.writes := by
  obtain ⟨-, y, hy, hn⟩ := h
  rw [hy, Finset.mem_singleton]
  exact StableHlo.devRef_ne_of_ne (fun e => hn (e ▸ hr))

/-- The six host operations before the region are tame for the arguments. -/
theorem hostOps0_tame : (hostOps0 : List (HloOp τ sig (Elt F))).Forall (Tame [main_arg0, main_arg1, main_arg2]) := by
  simp only [List.Forall]
  repeat' apply And.intro
  all_goals first | rfl | exact ⟨_, rfl, by decide⟩

set_option maxHeartbeats 40000000 in
/-- Every host operation after the region is tame for the arguments and the region's arrays. -/
theorem hostOps1_tame : (hostOps1 : List (HloOp τ sig (Elt F))).Forall (Tame guarded) := by
  simp only [List.Forall]
  repeat' apply And.intro
  all_goals first | rfl | exact ⟨_, rfl, by decide⟩

/-- A line of tame operations leaves every guarded buffer as it found it. -/
theorem after_tame {G : List (Ref sig .tc)} {ops : List (HloOp τ sig (Elt F))} (h : ops.Forall (Tame G))
    (W : Valuation τ sig (Elt F)) {r : Ref sig .tc} (hr : r ∈ G) :
    StableHlo.after ops W (Proc.devRef .tc r) = W (Proc.devRef .tc r) :=
  StableHlo.after_of_forall_not_mem ops W fun op hop => ((List.forall_iff_forall_mem.mp h) op hop).keeps hr

/-- A list of one line, flattened, is that line. -/
theorem flatten_one {α : Type} (l : List α) : List.flatten [l] = l := by
  rw [List.flatten_cons, List.flatten_nil, List.append_nil]

/-- Every array of the region is guarded. -/
theorem arr_guarded : ∀ w, Pipeline.arrRef spec0 w ∈ guarded := by decide

theorem hostOps0_fresh : (hostOps0 : List (HloOp τ sig (Elt F))).Forall fun op => op.fresh = ∅ :=
  List.forall_iff_forall_mem.mpr fun op hop => ((List.forall_iff_forall_mem.mp hostOps0_tame) op hop).fresh

theorem hostOps1_fresh : (hostOps1 : List (HloOp τ sig (Elt F))).Forall fun op => op.fresh = ∅ :=
  List.forall_iff_forall_mem.mpr fun op hop => ((List.forall_iff_forall_mem.mp hostOps1_tame) op hop).fresh

/-! ## The entry function around the region -/

/-- The entry function is the earlier host line, the region, the later host line: holding the unscoped buffers at the
    launch contents it reduces to the region continued by the later line, holding them at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later line touches only unscoped TensorCore buffers: with nothing prefetched these are exactly the region's
    arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl := List.mem_singleton.mp hops
  exact ((List.forall_iff_forall_mem.mp hostOps1_tame) op hop).fresh

/-- And it writes no array of the region: each operation writes its own result only, and no array is such a result. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact ((List.forall_iff_forall_mem.mp hostOps1_tame) op hop).keeps (arr_guarded w)

/-! ## The arguments: as launched when the region is entered, and at the end -/

/-- No earlier host operation writes an argument. -/
theorem V_arg {r : Ref sig .tc} (hr : r ∈ [main_arg0, main_arg1, main_arg2]) (c : Dev nD) :
    V m c r = m ((c : Thread nD τ).loc r) := by
  show StableHlo.after (List.flatten [hostOps0]) (fun b => m (c, b)) (Proc.devRef .tc r) = _
  rw [flatten_one, after_tame hostOps0_tame _ hr]

theorem V_main_arg0 (c : Dev nD) : V m c main_arg0 = m ((c : Thread nD τ).loc main_arg0) := V_arg m (by decide) c
theorem V_main_arg1 (c : Dev nD) : V m c main_arg1 = m ((c : Thread nD τ).loc main_arg1) := V_arg m (by decide) c
theorem V_main_arg2 (c : Dev nD) : V m c main_arg2 = m ((c : Thread nD τ).loc main_arg2) := V_arg m (by decide) c

/-- No later host operation writes an argument, and no argument is an array of the region: after the later line an
    argument holds what it held when the region was entered, which is what it was launched with. -/
theorem W_arg {r : Ref sig .tc} (hr : r ∈ [main_arg0, main_arg1, main_arg2]) (hg : r ∈ guarded)
    (hne : ∀ w, Pipeline.arrRef spec0 w ≠ r)
    (dats' : (p : Fin _) → (c : Dev nD) → Dat τ (Elt F) Unit ℕ (UR sig nD τ) ℕ (cfgs p) c) (c : Dev nD) :
    Pipeline.afterTail₀ cfgs dats' 0 (V0 m) [hostOps1] c r = m ((c : Thread nD τ).loc r) := by
  unfold Pipeline.afterTail₀
  rw [flatten_one, after_tame hostOps1_tame _ hg, Pipeline.withArrays_of_ne _ c (V0 m c) _ r hne]
  exact V_arg m hr c

theorem W_main_arg0 (dats' : (p : Fin _) → (c : Dev nD) → Dat τ (Elt F) Unit ℕ (UR sig nD τ) ℕ (cfgs p) c) (c : Dev nD) :
    Pipeline.afterTail₀ cfgs dats' 0 (V0 m) [hostOps1] c main_arg0 = m ((c : Thread nD τ).loc main_arg0) :=
  W_arg m (by decide) (by decide) (by decide) dats' c
theorem W_main_arg1 (dats' : (p : Fin _) → (c : Dev nD) → Dat τ (Elt F) Unit ℕ (UR sig nD τ) ℕ (cfgs p) c) (c : Dev nD) :
    Pipeline.afterTail₀ cfgs dats' 0 (V0 m) [hostOps1] c main_arg1 = m ((c : Thread nD τ).loc main_arg1) :=
  W_arg m (by decide) (by decide) (by decide) dats' c
theorem W_main_arg2 (dats' : (p : Fin _) → (c : Dev nD) → Dat τ (Elt F) Unit ℕ (UR sig nD τ) ℕ (cfgs p) c) (c : Dev nD) :
    Pipeline.afterTail₀ cfgs dats' 0 (V0 m) [hostOps1] c main_arg2 = m ((c : Thread nD τ).loc main_arg2) :=
  W_arg m (by decide) (by decide) (by decide) dats' c

end Cert.KernelIdeal.Fr

end
-- ==== Proof.FrameKI.lean ====
import proofs.«136613_j42906723287547_2_alg».proof.Proof.FrameKIHost
import proofs.«136613_j42906723287547_2_alg».proof.Proof.Gen.KernelIdeal.Launch
import proofs.«136613_j42906723287547_2_alg».proof.Proof.Gen.KernelIdeal.Skeleton
import proofs.«136613_j42906723287547_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The frame of the program: its one region run at every grid point, between two host lines

The region has a static grid of 32 points and five windows. Windows 0 and 1 stage 1024 consecutive rows of the two
reshaped inputs at every point; window 2 stages the whole transposed weight, once; windows 3 and 4 are the two results,
a column of 1024 entries each, written back at every point. The body loads its three inputs whole, and stores each
result whole, once: so what it leaves in a result's buffer is one pure function of the three input blocks at the point,
whatever the buffer held before. With the host side (the sibling module), the library's frame run gives termination
without fault, every array of the region at what the proof data say, and every other unscoped buffer — the arguments
among them — at what the later host line leaves, which for the arguments is what they were launched with.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each buffer whole -/

/-- The whole of an input's staging buffer. -/
abbrev rIn : Rect S1024x1024 := Rect.unit (s := S1024x1024) ![0, 0] S1024x1024.size inb_S1024x1024_S1024x1024_0_0
/-- The whole of a result's staging buffer. -/
abbrev rOut : Rect S1024x1 := Rect.unit (s := S1024x1) ![0, 0] S1024x1.size inb_S1024x1_S1024x1_0_0

/-! ## What the body leaves in each result's buffer -/

/-- The first result's buffer after the body, from the three input blocks: its one store, of the row sums of the
    product of the projected rows with the key rows rotated down by one. -/
def outA (x0 x1 : Vec F S1024x1024 .f32) (x2 : Vec F S1024x1024 .bf16) : Vec F S1024x1 .f32 :=
  View.canon [⟨rOut, k0_pay3 (View.ld x0 rIn) (View.ld x2 rIn) (View.ld x1 rIn)⟩]

/-- The second result's buffer after the body: the same with the key rows rotated up by one. -/
def outB (x0 x1 : Vec F S1024x1024 .f32) (x2 : Vec F S1024x1024 .bf16) : Vec F S1024x1 .f32 :=
  View.canon [⟨rOut, k0_pay4 (View.ld x0 rIn) (View.ld x2 rIn) (View.ld x1 rIn)⟩]

/-- One store through the whole of a result's buffer covers it. -/
theorem coverOut (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

/-! ## The body's triple -/

set_option maxHeartbeats 4000000 in
/-- The body on whole staging buffers, the inputs' reading x0, x1, x2 and the results' holding anything, runs to
    the continuation with the inputs' as they were and the results' reading outA and outB of the inputs. The body
    reads each result's buffer once before storing into it and drops what it read. -/
theorem sound_kernel (c : Dev nD) (E : Set ℕ) (i : grid0.Coords)
    (arg1 : Memref sig .tc .vmem S1024x1024 .f32) (harg1 : arg1.IsWhole)
    (arg2 : Memref sig .tc .vmem S1024x1024 .f32) (harg2 : arg2.IsWhole)
    (arg3 : Memref sig .tc .vmem S1024x1024 .bf16) (harg3 : arg3.IsWhole)
    (arg4 : Memref sig .tc .vmem S1024x1 .f32) (harg4 : arg4.IsWhole)
    (arg5 : Memref sig .tc .vmem S1024x1 .f32) (harg5 : arg5.IsWhole)
    (x0 x1 : Vec F S1024x1024 .f32) (x2 : Vec F S1024x1024 .bf16) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
              ∗ owns (c : Thread nD τ) arg3 fullShare x2
              ∗ owns (c : Thread nD τ) arg4 fullShare (outA x0 x1 x2)
              ∗ owns (c : Thread nD τ) arg5 fullShare (outB x0 x1 x2)) -∗ K ⟨⟩))
      ⊢ wp frame (wpE (defs₀ (F := F)) Variants.none c none) E
          (cc0__extract_kernel i arg1 harg1 arg2 harg2 arg3 harg3 arg4 harg4 arg5 harg5) K := by
  simp only [cc0__extract_kernel_eq_skeleton]; unfold cc0__extract_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

/-! ## The proof data of the region -/

/-- The proof data of the region on core c: the arrays as the region finds them; after the body at point t each input's
    buffer still at its block and each result's at outA, outB of the three input blocks; the invariant the class's (the
    scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (iblk m c 0 t) (iblk m c 1 t) (iblk m c 2 t)
    | ⟨4, _⟩ => outB (iblk m c 0 t) (iblk m c 1 t) (iblk m c 2 t)
  Φ _ := Pipeline.ΦA spec0 c
  q _ := fullShare
  owed _ := 0

/-- The proof data's arrays are the region-entry contents (the definition projected, the entry contents never opened). -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outA (iblk m c 0 t) (iblk m c 1 t) (iblk m c 2 t) := by dsimp only [dats]
theorem after_4 (c : Dev nD) (t : Fin cfg0.N) :
    (dats m 0 c).after 4 t = outB (iblk m c 0 t) (iblk m c 1 t) (iblk m c 2 t) := by dsimp only [dats]

/-- Each input's current staging buffer holds its block at every point, fetched there or not: an input the pipeline does
    not fetch at a point has the block index of the point before, and the body left that block in place. The windows
    are uncut and never idle. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of the entry function on the
    TensorCores terminates without fault, and every final state has every array of the region at what the library
    computes from the proof data and every other unscoped buffer as the later host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without fault and the three argument arrays end as launched. An
    argument is unscoped and is no array of the region, so the run's post reads it at what the later host line leaves,
    which is what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Fr

end
-- ==== Proof.Spec.lean ====
/-
  What both programs compute, as mathematics over the extended reals.

  From query q[b,s,h], key k[b,s,h] and weight w[o,h] form the projected rows
  inter[b,s,o] = sum over h of q[b,s,h] * w[o,h].  Only two off-diagonals of inter * key^T are used:
  left[b,j]  = < inter[b,j+1,.] , k[b,j,.]   >   (j < 4095)
  right[b,j] = < inter[b,j,.]   , k[b,j+1,.] >   (j < 4095).
  Everything after that — pairing left[b,j] with right[b,j+1], a two-way softmax, the product of
  neighbouring probabilities, square root, logarithm, the sum over j and the exponential — is one
  function `tail` of the two arrays, the same for both programs, and is never opened.
-/
import Idealize.ShloMosaic.PureOps
import Idealize.ShloMosaic.PureOps.Ideal
import Idealize.ShloMosaic.Lib.ValueIdx

noncomputable section

namespace Cert.Spec

open Idealize.ShloMosaic

/-- Row `(b, s)` of query times the transposed weight, at output feature `o`. -/
def inter (q : Fin 8 → Fin 4096 → Fin 1024 → EReal) (w : Fin 1024 → Fin 1024 → EReal)
    (b : Fin 8) (s : Fin 4096) (o : Fin 1024) : EReal :=
  ∑ h : Fin 1024, q b s h * w o h

/-- The projected row `j + 1` against the key row `j`. -/
def left (q k : Fin 8 → Fin 4096 → Fin 1024 → EReal) (w : Fin 1024 → Fin 1024 → EReal)
    (b : Fin 8) (j : Fin 4095) : EReal :=
  ∑ o : Fin 1024, inter q w b ⟨j.val + 1, by omega⟩ o * k b ⟨j.val, by omega⟩ o

/-- The projected row `j` against the key row `j + 1`. -/
def right (q k : Fin 8 → Fin 4096 → Fin 1024 → EReal) (w : Fin 1024 → Fin 1024 → EReal)
    (b : Fin 8) (j : Fin 4095) : EReal :=
  ∑ o : Fin 1024, inter q w b ⟨j.val, by omega⟩ o * k b ⟨j.val + 1, by omega⟩ o

abbrev P8x4095 : Shape := ⟨2, ![8, 4095]⟩
abbrev P8x4094 : Shape := ⟨2, ![8, 4094]⟩
abbrev P8x4094x1 : Shape := ⟨3, ![8, 4094, 1]⟩
abbrev P8x4094x2 : Shape := ⟨3, ![8, 4094, 2]⟩
abbrev P8x4093x1 : Shape := ⟨3, ![8, 4093, 1]⟩
abbrev P8x4093 : Shape := ⟨2, ![8, 4093]⟩
abbrev P8 : Shape := ⟨1, ![8]⟩
abbrev P_ : Shape := ⟨0, ![]⟩

theorem sl00 : P8x4095.Slices ![0, 0] P8x4094 := by decide
theorem sl01 : P8x4095.Slices ![0, 1] P8x4094 := by decide
theorem bc1 : P8x4094.BroadcastsInDim P8x4094x1 (![0, 1] : Fin 2 → Fin P8x4094x1.rank) := by decide
theorem cat2 : Shape.Concatenates [P8x4094x1, P8x4094x1] P8x4094x2 2 := by decide
theorem red2 : P8x4094x2.ReducesTo [2] P8x4094 := by decide
theorem bc0 : P_.BroadcastsInDim P8x4094 (![] : Fin 0 → Fin P8x4094.rank) := by decide
theorem bc2 : P8x4094x1.BroadcastsInDim P8x4094x2 (![0, 1, 2] : Fin 3 → Fin P8x4094x2.rank) := by decide
theorem sl3a : P8x4094x2.Slices ![0, 0, 1] P8x4093x1 := by decide
theorem sl3b : P8x4094x2.Slices ![0, 1, 0] P8x4093x1 := by decide
theorem sc3 : P8x4093x1.ShapeCasts P8x4093 := by decide
theorem bc3 : P_.BroadcastsInDim P8x4093 (![] : Fin 0 → Fin P8x4093.rank) := by decide
theorem red1 : P8x4093.ReducesTo [1] P8 := by decide
theorem hP_ : 0 < P_.numel := by decide

/-- The pairs `(left[b,j], right[b,j+1])`, `j < 4094`, stacked on a last axis of length two. -/
def pairs (rl rr : FVec Ideal P8x4095 .f32) : FVec Ideal P8x4094x2 .f32 :=
  concatenate P8x4094x2 2
    [⟨P8x4094x1, broadcastInDim P8x4094x1 ![0, 1] bc1 (extractStridedSlice P8x4094 ![0, 0] rl sl00)⟩,
     ⟨P8x4094x1, broadcastInDim P8x4094x1 ![0, 1] bc1 (extractStridedSlice P8x4094 ![0, 1] rr sl01)⟩]
    cat2

/-- The two-way softmax of each pair: exponentials of the entries less the pair's maximum, over their sum. -/
def probs (c : FVec Ideal P8x4094x2 .f32) : FVec Ideal P8x4094x2 .f32 :=
  let e : FVec Ideal P8x4094x2 .f32 := Host.exp (subf c (broadcastInDim P8x4094x2 ![0, 1, 2] bc2
    (broadcastInDim P8x4094x1 ![0, 1] bc1
      (maximumf (broadcastInDim P8x4094 ![] bc0 (constant (F := Ideal) P_ .f32 0xFF800000#32))
        (Host.reduce FloatOps.maximumf c (constant (F := Ideal) P_ .f32 0xFF800000#32) red2 hP_)))))
  Host.divf e (broadcastInDim P8x4094x2 ![0, 1, 2] bc2
    (broadcastInDim P8x4094x1 ![0, 1] bc1
      (Host.reduceAdd e (constant (F := Ideal) P_ .f32 0x00000000#32) red2 hP_)))

/-- From the probabilities to the result: the product of the right probability at `j` and the left one at
    `j + 1`, plus a small constant, square root, plus a small constant, logarithm, summed over `j`, exponential. -/
def finish (p : FVec Ideal P8x4094x2 .f32) : FVec Ideal P8 .f32 :=
  Host.exp (Host.reduceAdd
    (Host.log (addf (Host.sqrt (addf
        (mulf (shapeCast P8x4093 (extractStridedSlice P8x4093x1 ![0, 0, 1] p sl3a) sc3)
              (shapeCast P8x4093 (extractStridedSlice P8x4093x1 ![0, 1, 0] p sl3b) sc3))
        (broadcastInDim P8x4093 ![] bc3 (constant (F := Ideal) P_ .f32 0x3089705F#32))))
      (broadcastInDim P8x4093 ![] bc3 (constant (F := Ideal) P_ .f32 0x322BCC77#32))))
    (constant (F := Ideal) P_ .f32 0x00000000#32) red1 hP_)

/-- Everything after the two off-diagonals. -/
def tail (rl rr : FVec Ideal P8x4095 .f32) : FVec Ideal P8 .f32 := finish (probs (pairs rl rr))

end Cert.Spec

end
-- ==== Proof.RefSide.lean ====
/-
  The reference program read as mathematics.

  Its two reductions are the two off-diagonals of the specification: the sum over the feature axis of
  (query row times the transposed weight) against a neighbouring key row.  Each is read element by
  element: the reduction is a sum started from zero, its summand a product, the left factor a slice of
  the projection (itself a sum over the hidden axis), the right factor a slice of the key.  What remains
  is to name the coordinates the slices compose to.  Everything the reference does after the two
  reductions is, operation for operation, the specification's tail.
-/
import proofs.«136613_j42906723287547_2_alg».proof.Proof.Gen.ReferenceIdeal.Read
import proofs.«136613_j42906723287547_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## Coordinates of the composed slices, left off-diagonal (projection row j + 1, key row j) -/

/-- The query entry under the left off-diagonal: batch b, row j + 1, hidden coordinate h. -/
theorem queryAtLeft (b : Fin 8) (j : Fin 4095) (o h : Fin 1024) :
    lidx_main_v0 (idx_main_v1 (idx_main_v4 (ix2 b j) o)) h = ix3 b (⟨j.val + 1, by omega⟩ : Fin 4096) h :=
  funext fun a => Fin.ext (by
    match a with
    | ⟨0, _⟩ => rfl
    | ⟨1, _⟩ => exact Nat.add_comm 1 j.val
    | ⟨2, _⟩ => rfl)

/-- The weight entry under the left off-diagonal: output feature o, hidden coordinate h. -/
theorem weightAtLeft (b : Fin 8) (j : Fin 4095) (o h : Fin 1024) :
    ridx_main_v0 (idx_main_v1 (idx_main_v4 (ix2 b j) o)) h = ix2 o h :=
  funext fun a => Fin.ext (by
    match a with
    | ⟨0, _⟩ => rfl
    | ⟨1, _⟩ => rfl)

/-- The key entry under the left off-diagonal: batch b, row j, feature o. -/
theorem keyAtLeft (b : Fin 8) (j : Fin 4095) (o : Fin 1024) :
    idx_main_v2 (idx_main_v4 (ix2 b j) o) = ix3 b (⟨j.val, by omega⟩ : Fin 4096) o :=
  funext fun a => Fin.ext (by
    match a with
    | ⟨0, _⟩ => rfl
    | ⟨1, _⟩ => rfl
    | ⟨2, _⟩ => rfl)

/-! ## Coordinates of the composed slices, right off-diagonal (projection row j, key row j + 1) -/

/-- The query entry under the right off-diagonal: batch b, row j, hidden coordinate h. -/
theorem queryAtRight (b : Fin 8) (j : Fin 4095) (o h : Fin 1024) :
    lidx_main_v0 (idx_main_v5 (idx_main_v8 (ix2 b j) o)) h = ix3 b (⟨j.val, by omega⟩ : Fin 4096) h :=
  funext fun a => Fin.ext (by
    match a with
    | ⟨0, _⟩ => rfl
    | ⟨1, _⟩ => rfl
    | ⟨2, _⟩ => rfl)

/-- The weight entry under the right off-diagonal: output feature o, hidden coordinate h. -/
theorem weightAtRight (b : Fin 8) (j : Fin 4095) (o h : Fin 1024) :
    ridx_main_v0 (idx_main_v5 (idx_main_v8 (ix2 b j) o)) h = ix2 o h :=
  funext fun a => Fin.ext (by
    match a with
    | ⟨0, _⟩ => rfl
    | ⟨1, _⟩ => rfl)

/-- The key entry under the right off-diagonal: batch b, row j + 1, feature o. -/
theorem keyAtRight (b : Fin 8) (j : Fin 4095) (o : Fin 1024) :
    idx_main_v6 (idx_main_v8 (ix2 b j) o) = ix3 b (⟨j.val + 1, by omega⟩ : Fin 4096) o :=
  funext fun a => Fin.ext (by
    match a with
    | ⟨0, _⟩ => rfl
    | ⟨1, _⟩ => exact Nat.add_comm 1 j.val
    | ⟨2, _⟩ => rfl)

/-! ## The two reductions -/

/-- The first reduction is the left off-diagonal: a sum from zero of products, each product a
    projected entry (a sum over the hidden axis) times a key entry. -/
theorem left_eq (x0 x1 : (⟨S8x4096x1024, .f32⟩ : BufTy).Contents (Elt Ideal))
    (x2 : (⟨S1024x1024, .f32⟩ : BufTy).Contents (Elt Ideal)) (b : Fin 8) (j : Fin 4095) :
    Cert.ReferenceIdeal.Read.val_main_v4 (F := Ideal) x0 x1 x2 (ValueIdx.ix2 b j)
      = Cert.Spec.left (fun b s h => x0 (ValueIdx.ix3 b s h)) (fun b s h => x1 (ValueIdx.ix3 b s h))
          (fun o h => x2 (ValueIdx.ix2 o h)) b j := by
  rw [val_main_v4_apply]
  have hz : (val_main_cst (F := Ideal)) (Shape.Idx.first h_S_) = 0 := Ideal.ofBits_zero_f32
  rw [hz, zero_add]
  unfold Cert.Spec.left
  refine Finset.sum_congr rfl fun o _ => ?_
  rw [val_main_v3_apply, val_main_v1_apply, val_main_v2_apply, val_main_v0_apply, keyAtLeft]
  unfold Cert.Spec.inter
  refine congrArg (· * x1 (ix3 b (⟨j.val, by omega⟩ : Fin 4096) o)) ?_
  refine Finset.sum_congr rfl fun h _ => ?_
  rw [queryAtLeft, weightAtLeft]

/-- The second reduction is the right off-diagonal. -/
theorem right_eq (x0 x1 : (⟨S8x4096x1024, .f32⟩ : BufTy).Contents (Elt Ideal))
    (x2 : (⟨S1024x1024, .f32⟩ : BufTy).Contents (Elt Ideal)) (b : Fin 8) (j : Fin 4095) :
    Cert.ReferenceIdeal.Read.val_main_v8 (F := Ideal) x0 x1 x2 (ValueIdx.ix2 b j)
      = Cert.Spec.right (fun b s h => x0 (ValueIdx.ix3 b s h)) (fun b s h => x1 (ValueIdx.ix3 b s h))
          (fun o h => x2 (ValueIdx.ix2 o h)) b j := by
  rw [val_main_v8_apply]
  have hz : (val_main_cst_0 (F := Ideal)) (Shape.Idx.first h_S_) = 0 := Ideal.ofBits_zero_f32
  rw [hz, zero_add]
  unfold Cert.Spec.right
  refine Finset.sum_congr rfl fun o _ => ?_
  rw [val_main_v7_apply, val_main_v5_apply, val_main_v6_apply, val_main_v0_apply, keyAtRight]
  unfold Cert.Spec.inter
  refine congrArg (· * x1 (ix3 b (⟨j.val + 1, by omega⟩ : Fin 4096) o)) ?_
  refine Finset.sum_congr rfl fun h _ => ?_
  rw [queryAtRight, weightAtRight]

/-! ## After the two reductions -/

/-- The rest of the reference is the specification's tail applied to its two reductions: the same
    operations in the same order over the same literal shapes. -/
theorem result_eq (x0 x1 : (⟨S8x4096x1024, .f32⟩ : BufTy).Contents (Elt Ideal))
    (x2 : (⟨S1024x1024, .f32⟩ : BufTy).Contents (Elt Ideal)) :
    Cert.ReferenceIdeal.Read.val_main_v37 (F := Ideal) x0 x1 x2
      = Cert.Spec.tail (Cert.ReferenceIdeal.Read.val_main_v4 (F := Ideal) x0 x1 x2)
          (Cert.ReferenceIdeal.Read.val_main_v8 (F := Ideal) x0 x1 x2) := by
  generalize hl : val_main_v4 (F := Ideal) x0 x1 x2 = rl
  generalize hr : val_main_v8 (F := Ideal) x0 x1 x2 = rr
  unfold Cert.Spec.tail Cert.Spec.finish Cert.Spec.probs Cert.Spec.pairs
  unfold val_main_v37 val_main_v36 val_main_v35 val_main_v34 val_main_v33 val_main_v32 val_main_v31
    val_main_v30 val_main_v29 val_main_v28 val_main_v27 val_main_v26 val_main_v25 val_main_v24
    val_main_v23 val_main_v22 val_main_v21 val_main_v20 val_main_v19 val_main_v18 val_main_v17
    val_main_v16 val_main_v15 val_main_v14 val_main_v13 val_main_v12 val_main_v11 val_main_v10
    val_main_v9 val_main_cst_1 val_main_cst_2 val_main_cst_3 val_main_cst_4 val_main_cst_5
    val_main_cst_6
  rw [hl, hr]

end Cert.ReferenceIdeal.RefValue

end
-- ==== Proof.SpecArr.lean ====
/-
  The two off-diagonals as arrays over [8, 4095].
-/
import proofs.«136613_j42906723287547_2_alg».proof.Proof.Spec

noncomputable section

namespace Cert.Spec

open Idealize.ShloMosaic

/-- `left` as an array. -/
def leftArr (q k : Fin 8 → Fin 4096 → Fin 1024 → EReal) (w : Fin 1024 → Fin 1024 → EReal) : FVec Ideal P8x4095 .f32 :=
  fun i => left q k w (i 0) (i 1)
/-- `right` as an array. -/
def rightArr (q k : Fin 8 → Fin 4096 → Fin 1024 → EReal) (w : Fin 1024 → Fin 1024 → EReal) : FVec Ideal P8x4095 .f32 :=
  fun i => right q k w (i 0) (i 1)

end Cert.Spec

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibLaneSum.lean ====
/-
  A sum along the rows of a matrix, read at a row.

  Reducing an [a, b] matrix along its second axis with the additive accumulator at zero gives, at the ideal values, the
  vector whose entry p is the sum over the b columns of the matrix's row p: the source index over result entry p with
  coordinate k on the dropped axis is (p, k).
-/
import Idealize.ShloMosaic.PureOps.Ideal.Laws
import Idealize.ShloMosaic.Lib.ValueIdx

noncomputable section

namespace Cert.LibLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- An additive reduction of an `[a, b]` matrix along its second axis from the zero word, read at row `p`. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.LibPlainDot.lean ====
/-
  A plain matrix product read at an entry.

  For an [M, K] by [K, N] product with no batch axis, contracting the left operand's columns against the right operand's
  rows, the operand indices at the result entry (p, o) and the contraction coordinate q are (p, q) and (q, o). So at the
  ideal values the product accumulated onto the zero splat is, at (p, o), the sum over q of lhs (p, q) · rhs (q, o).
-/
import Idealize.ShloMosaic.PureOps.Ideal.Laws
import Idealize.ShloMosaic.Lib.ValueIdx

noncomputable section

namespace Cert.LibPlainDot

open Idealize.ShloMosaic Idealize.ShloMosaic.ValueIdx

/-- The left operand's index at result entry (p, o) and contraction coordinate q is (p, q). -/
theorem plain_lhsIdx {M K N : ℕ} (p : Fin M) (o : Fin N) (q : Fin K) :
    (DotDims.plain M K N).lhsIdx (ix2 p o) ((contrEquiv1 (DotDims.plain M K N) K rfl rfl).symm q) = ix2 p q :=
  funext fun a => Fin.ext (by
    match a with
    | ⟨0, _⟩ => rfl
    | ⟨1, _⟩ => exact contrEquiv1_symm_val (DotDims.plain M K N) K rfl rfl q)

/-- The right operand's index at result entry (p, o) and contraction coordinate q is (q, o). -/
theorem plain_rhsIdx {M K N : ℕ} (p : Fin M) (o : Fin N) (q : Fin K) :
    (DotDims.plain M K N).rhsIdx (ix2 p o) ((contrEquiv1 (DotDims.plain M K N) K rfl rfl).symm q) = ix2 q o :=
  funext fun a => Fin.ext (by
    match a with
    | ⟨0, _⟩ => exact contrEquiv1_symm_val (DotDims.plain M K N) K rfl rfl q
    | ⟨1, _⟩ => rfl)

/-- A plain product onto the zero splat, read at (p, o): the sum over the contraction coordinate. -/
theorem plain_matmul_zero_apply {M K N : ℕ} {φ₁ φ₂ : FTy} (prec : Option ContractPrecision)
    (lhs : FVec Ideal ⟨2, ![M, K]⟩ φ₁) (rhs : FVec Ideal ⟨2, ![K, N]⟩ φ₂) (p : Fin M) (o : Fin N) :
    FloatOps.matmul (DotDims.plain M K N) prec lhs rhs (constant ⟨2, ![M, N]⟩ .f32 0x00000000#32) (ix2 p o)
      = ∑ q : Fin K, lhs (ix2 p q) * rhs (ix2 q o) := by
  rw [Ideal.matmul_constant_zero_apply, ← Equiv.sum_comp (contrEquiv1 (DotDims.plain M K N) K rfl rfl).symm]
  refine Finset.sum_congr rfl fun q _ => ?_
  rw [plain_lhsIdx, plain_rhsIdx]

end Cert.LibPlainDot

end
-- ==== Proof.Payload.lean ====
/-
  What the kernel body stores, entry by entry, at the ideal values.

  From its three blocks — x0: 1024 query rows, x1: the 1024 key rows of the same positions, x2: the transposed weight —
  the body forms the projected rows P(r, o) = sum over h of x0(r, h) · x2(h, o), multiplies them entry by entry with the
  key rows ROTATED by one position along the rows, and sums each row. Rotating down by one puts key row r − 1 at row r
  (row 1023 at row 0); rotating by 1023 puts key row r + 1 at row r (row 0 at row 1023). So the first stored column holds,
  at row r, < P(r, ·), x1((r + 1023) mod 1024, ·) >, and the second < P(r, ·), x1((r + 1) mod 1024, ·) >.
-/
import proofs.«136613_j42906723287547_2_alg».proof.Proof.Gen.KernelIdeal.Skeleton
import proofs.«136613_j42906723287547_2_alg».proof.Proof.LibColumn
import proofs.«136613_j42906723287547_2_alg».proof.Proof.LibLaneSum
import proofs.«136613_j42906723287547_2_alg».proof.Proof.LibPlainDot
import Idealize.ShloMosaic.Lib.KernelVsHost
import Idealize.ShloMosaic.Lib.Pipeline.Value

noncomputable section

namespace Cert.KernelIdeal.Val

open Idealize.ShloMosaic Idealize.ShloMosaic.ValueIdx Cert.KernelIdeal Cert.KernelIdeal.Gen

/-- The projected rows: the product of the query block and the transposed weight, read at an entry. -/
theorem pay1_apply (x0 : Vec Ideal S1024x1024 .f32) (x2 : Vec Ideal S1024x1024 .bf16) (r o : Fin 1024) :
    k0_pay1 (F := Ideal) x0 x2 (ix2 r o) = ∑ h : Fin 1024, x0 (ix2 r h) * x2 (ix2 h o) := by
  unfold k0_pay1
  rw [shapeCast_self, shapeCast_self]
  exact Cert.LibPlainDot.plain_matmul_zero_apply (M := 1024) (K := 1024) (N := 1024) none
    (truncf .bf16 x0 Facts₀.bitsLt_bf16_f32) x2 r o

/-- The key block rotated along its rows by `n` positions, read at an entry: the row `n` positions back, around the end. -/
theorem rot_apply (x1 : Vec Ideal S1024x1024 .f32) (n : BitVec 32) (r o : Fin 1024) :
    dynamicRotate 0 n none (k0_pay2 (F := Ideal) x1) Facts₀.rotates_S1024x1024_d0 (ix2 r o)
      = x1 (ix2 ⟨(r.val + 1024 - n.toNat % 1024) % 1024, Nat.mod_lt _ (by decide)⟩ o) := by
  unfold k0_pay2
  rw [shapeCast_self]
  refine dynamicRotate_apply 0 n x1 _ (ix2 r o) _ fun b => ?_
  match b with
  | ⟨0, _⟩ => rfl
  | ⟨1, _⟩ => rfl

/-- The first stored column at row `r`: the projected row `r` against the key row before it, around the block. -/
theorem pay3_apply (x0 x1 : Vec Ideal S1024x1024 .f32) (x2 : Vec Ideal S1024x1024 .bf16) (r : Fin 1024) (u : Fin 1) :
    k0_pay3 (F := Ideal) x0 x2 x1 (ix2 r u)
      = ∑ o : Fin 1024, (∑ h : Fin 1024, x0 (ix2 r h) * x2 (ix2 h o))
          * x1 (ix2 ⟨(r.val + 1023) % 1024, Nat.mod_lt _ (by decide)⟩ o) := by
  unfold k0_pay3
  refine (Cert.LibColumn.shapeCast_a_a1_apply _ _ r u).trans ?_
  refine (Cert.LibLaneSum.lane_sum_apply _ _ _ _ r).trans ?_
  refine Finset.sum_congr rfl fun o _ => ?_
  rw [mulf_apply, pay1_apply, rot_apply]
  rfl

/-- The second stored column at row `r`: the projected row `r` against the key row after it, around the block. -/
theorem pay4_apply (x0 x1 : Vec Ideal S1024x1024 .f32) (x2 : Vec Ideal S1024x1024 .bf16) (r : Fin 1024) (u : Fin 1) :
    k0_pay4 (F := Ideal) x0 x2 x1 (ix2 r u)
      = ∑ o : Fin 1024, (∑ h : Fin 1024, x0 (ix2 r h) * x2 (ix2 h o))
          * x1 (ix2 ⟨(r.val + 1) % 1024, Nat.mod_lt _ (by decide)⟩ o) := by
  unfold k0_pay4
  refine (Cert.LibColumn.shapeCast_a_a1_apply _ _ r u).trans ?_
  refine (Cert.LibLaneSum.lane_sum_apply _ _ _ _ r).trans ?_
  refine Finset.sum_congr rfl fun o _ => ?_
  rw [mulf_apply, pay1_apply, rot_apply]
  rfl

end Cert.KernelIdeal.Val

end
-- ==== Proof.PatchDefs.lean ====
/-
  The host lines that follow the region, up to the two off-diagonal arrays, as two functions.

  The region leaves two columns a, b of 32768 entries: entry r of a is the projected row r against the key row
  just before it INSIDE its block of 1024 rows (so wrong at the first row of each block), entry r of b against the key
  row just after it inside its block (wrong at the last row of each block). The host then recomputes 24 entries of
  each column — the block-first rows 1024·i that do not start a batch, the block-last rows 1024·i + 1023 that do not
  end one — from a gather of the query rows, the product with the transposed weight, a gather of the neighbouring
  key rows and a sum, and writes them over the column by a scatter; the column is re-laid as [8, 4096] and cut to
  the 4095 entries per batch that are used. `leftOf` and `rightOf` are those lines applied to a column, the two
  flattened arrays, the transposed weight and the table of rows.
-/
import proofs.«136613_j42906723287547_2_alg».proof.Proof.Gen.KernelIdeal
import Idealize.ShloMosaic.PureOps.Ideal
import Idealize.ShloMosaic.Lib.ValueIdx

noncomputable section

namespace Cert.KernelIdeal.Patch

open Idealize.ShloMosaic Cert.KernelIdeal Cert.KernelIdeal.Facts₀

/-- A 32-bit word in every one of 24 places. -/
def splat24 (v : BitVec 32) : IVec S24 32 := broadcastInDim S24 ![] bcast_S_S24 (constantI S_ 32 v)

/-- A table of row numbers with the negative ones moved up by 32768 (none is: the tables are literal and positive). -/
def wrap (x : IVec S24 32) : IVec S24 32 := select (cmpi .slt x (splat24 0#32)) (addi x (splat24 32768#32)) x

/-- The 24 rows `x` of a flattened array. -/
def rowsOf (M : FVec Ideal S32768x1024 .f32) (x : IVec S24 32) : FVec Ideal S24x1024 .f32 :=
  Host.gather gather_S32768x1024_S24x1_S24x1024_1_0_n_n_0_1_11024 M (broadcastInDim S24x1 ![0] bcast_S24_S24x1_0 (wrap x))

/-- The 24 recomputed entries: the query rows `x` projected by the transposed weight against the key rows `y`. -/
def redo (Q K : FVec Ideal S32768x1024 .f32) (Wt : FVec Ideal S1024x1024 .bf16) (x y : IVec S24 32) : FVec Ideal S24 .f32 :=
  Host.reduceAdd
    (mulf (Host.dotGeneral dot_S24x1024_S1024x1024_S24x1024_1_0_0_1_n_n none (truncf .bf16 (rowsOf Q x) bitsLt_bf16_f32) Wt)
      (rowsOf K y))
    (constant (F := Ideal) S_ .f32 0x00000000#32) reducesTo_S24x1024_S24_d1 h_S_

/-- The positions `(row, 0)` of the column that the 24 entries go to. -/
def spots (x : IVec S24 32) : IVec S24x2 32 :=
  concatenate S24x2 1
    [⟨S24x1, broadcastInDim S24x1 ![0] bcast_S24_S24x1_0 (wrap x)⟩,
     ⟨S24x1, broadcastInDim S24x1 ![0] bcast_S24_S24x1_0 (id (splat24 0#32))⟩]
    concatenates_S24x1_S24x1_S24x2_d1

/-- The column with the 24 entries `u` written at the rows `x`. -/
def patched (A : FVec Ideal S32768x1 .f32) (x : IVec S24 32) (u : FVec Ideal S24 .f32) : FVec Ideal S32768x1 .f32 :=
  Host.scatter scatter_S32768x1_S24x2_S24_n_01_01_1 (fun _ b => b) A (spots x) u

/-- The first column after the region's lines: rows `C` redone against the key rows `C - 1`, re-laid per batch,
    entries 1 … 4095 of each batch. -/
def leftOf (A : FVec Ideal S32768x1 .f32) (Q K : FVec Ideal S32768x1024 .f32) (Wt : FVec Ideal S1024x1024 .bf16)
    (C : IVec S24 32) : FVec Ideal S8x4095 .f32 :=
  extractStridedSlice S8x4095 ![0, 1]
    (shapeCast S8x4096 (patched A C (redo Q K Wt C (subi C (splat24 1#32)))) shapeCasts_S32768x1_S8x4096)
    slices_S8x4096_S8x4095_0_1

/-- The second column after the region's lines: rows `C'` redone against the key rows `C' + 1`, re-laid per batch,
    entries 0 … 4094 of each batch. -/
def rightOf (B : FVec Ideal S32768x1 .f32) (Q K : FVec Ideal S32768x1024 .f32) (Wt : FVec Ideal S1024x1024 .bf16)
    (C' : IVec S24 32) : FVec Ideal S8x4095 .f32 :=
  extractStridedSlice S8x4095 ![0, 0]
    (shapeCast S8x4096 (patched B C' (redo Q K Wt C' (addi C' (splat24 1#32)))) shapeCasts_S32768x1_S8x4096)
    slices_S8x4096_S8x4095_0_0

/-- One entry of a column as it should be: the query row `R` projected by the transposed weight, against the key
    row `R'`. -/
def rowdot (Q K : (⟨2, ![32768, 1024]⟩ : Shape).Idx → EReal) (Wt : (⟨2, ![1024, 1024]⟩ : Shape).Idx → EReal)
    (R R' : Fin 32768) : EReal :=
  ∑ o : Fin 1024, (∑ h : Fin 1024, Q (ValueIdx.ix2 R h) * Wt (ValueIdx.ix2 h o)) * K (ValueIdx.ix2 R' o)

end Cert.KernelIdeal.Patch

end
-- ==== Proof.RegionOut.lean ====
/-
  What the region leaves in its two result columns, as whole-array functions.

  Point t of the grid is handed rows 1024·t … 1024·t + 1023 of the flattened query and key arrays and the whole
  transposed weight, and writes back rows 1024·t … 1024·t + 1023 of each column. With the body's stored columns read
  entry by entry, entry R of the first column is the projected row R against the key row that precedes R cyclically
  INSIDE R's block of 1024 rows, and entry R of the second against the key row that follows R cyclically inside the
  block; the 32 blocks tile the 32768 rows, so each column ends as that one function of the three arrays.
-/
import proofs.«136613_j42906723287547_2_alg».proof.Proof.FrameKI
import proofs.«136613_j42906723287547_2_alg».proof.Proof.Payload
import proofs.«136613_j42906723287547_2_alg».proof.Proof.PatchDefs
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr Cert.KernelIdeal.Patch

variable (m : (ℓ : Loc nD τ sig) → Buf (Elt Ideal) ℓ)

theorem hz : (![0, 0] : Fin 2 → Nat) = fun _ => 0 := funext fun a => by fin_cases a <;> rfl

/-- The key row paired with row `R` by the rotation one position down inside `R`'s block. -/
def prevIn (R : Fin 32768) : Fin 32768 := ⟨R.val / 1024 * 1024 + (R.val % 1024 + 1023) % 1024, by omega⟩
/-- The key row paired with row `R` by the rotation one position up inside `R`'s block. -/
def nextIn (R : Fin 32768) : Fin 32768 := ⟨R.val / 1024 * 1024 + (R.val % 1024 + 1) % 1024, by omega⟩

/-- The first column as the region leaves it. -/
def colA (Q K : S32768x1024.Idx → EReal) (Wt : S1024x1024.Idx → EReal) : S32768x1.Idx → EReal := fun i =>
  rowdot Q K Wt ⟨(i 0).val, (i 0).isLt⟩ (prevIn ⟨(i 0).val, (i 0).isLt⟩)
/-- The second column as the region leaves it. -/
def colB (Q K : S32768x1024.Idx → EReal) (Wt : S1024x1024.Idx → EReal) : S32768x1.Idx → EReal := fun i =>
  rowdot Q K Wt ⟨(i 0).val, (i 0).isLt⟩ (nextIn ⟨(i 0).val, (i 0).isLt⟩)

/-- One point's first stored column is its rows of `colA`, given that the point's blocks are rows
    `1024·T …` of the arrays. -/
theorem colA_point (X0 X1 : Vec Ideal S1024x1024 .f32) (X2 : Vec Ideal S1024x1024 .bf16)
    (Q K : S32768x1024.Idx → EReal) (Wt : S1024x1024.Idx → EReal) (T : Nat) (hT : T < 32)
    (h0 : ∀ r h : Fin 1024, X0 (ix2 r h) = Q (ix2 (⟨T * 1024 + r.val, by omega⟩ : Fin 32768) h))
    (h1 : ∀ r o : Fin 1024, X1 (ix2 r o) = K (ix2 (⟨T * 1024 + r.val, by omega⟩ : Fin 32768) o))
    (h2 : ∀ h o : Fin 1024, X2 (ix2 h o) = Wt (ix2 h o))
    (j : S1024x1.Idx) (r : Fin 1024) (u : Fin 1) (hjr : j = ix2 r u)
    (i : S32768x1.Idx) (hi : (i 0).val = T * 1024 + r.val) :
    k0_pay3 (F := Ideal) X0 X2 X1 j = colA Q K Wt i := by
  subst hjr
  have hj : r.val < 1024 := r.isLt
  refine (pay3_apply X0 X1 X2 r u).trans ?_
  unfold colA rowdot
  refine Finset.sum_congr rfl fun o _ => ?_
  have e1 : (⟨T * 1024 + (⟨(r.val + 1023) % 1024, Nat.mod_lt _ (by decide)⟩ : Fin 1024).val, by omega⟩ : Fin 32768)
      = prevIn ⟨(i 0).val, (i 0).isLt⟩ := by
    unfold prevIn; apply Fin.ext; show T * 1024 + (r.val + 1023) % 1024 = (i 0).val / 1024 * 1024 + ((i 0).val % 1024 + 1023) % 1024; omega
  have e0 : (⟨T * 1024 + r.val, by omega⟩ : Fin 32768) = ⟨(i 0).val, (i 0).isLt⟩ := Fin.ext hi.symm
  rw [h1, e1]
  refine congrArg (· * _) (Finset.sum_congr rfl fun h _ => ?_)
  rw [h0, h2, e0]

/-- The same for the second stored column and `colB`. -/
theorem colB_point (X0 X1 : Vec Ideal S1024x1024 .f32) (X2 : Vec Ideal S1024x1024 .bf16)
    (Q K : S32768x1024.Idx → EReal) (Wt : S1024x1024.Idx → EReal) (T : Nat) (hT : T < 32)
    (h0 : ∀ r h : Fin 1024, X0 (ix2 r h) = Q (ix2 (⟨T * 1024 + r.val, by omega⟩ : Fin 32768) h))
    (h1 : ∀ r o : Fin 1024, X1 (ix2 r o) = K (ix2 (⟨T * 1024 + r.val, by omega⟩ : Fin 32768) o))
    (h2 : ∀ h o : Fin 1024, X2 (ix2 h o) = Wt (ix2 h o))
    (j : S1024x1.Idx) (r : Fin 1024) (u : Fin 1) (hjr : j = ix2 r u)
    (i : S32768x1.Idx) (hi : (i 0).val = T * 1024 + r.val) :
    k0_pay4 (F := Ideal) X0 X2 X1 j = colB Q K Wt i := by
  subst hjr
  have hj : r.val < 1024 := r.isLt
  refine (pay4_apply X0 X1 X2 r u).trans ?_
  unfold colB rowdot
  refine Finset.sum_congr rfl fun o _ => ?_
  have e1 : (⟨T * 1024 + (⟨(r.val + 1) % 1024, Nat.mod_lt _ (by decide)⟩ : Fin 1024).val, by omega⟩ : Fin 32768)
      = nextIn ⟨(i 0).val, (i 0).isLt⟩ := by
    unfold nextIn; apply Fin.ext; show T * 1024 + (r.val + 1) % 1024 = (i 0).val / 1024 * 1024 + ((i 0).val % 1024 + 1) % 1024; omega
  have e0 : (⟨T * 1024 + r.val, by omega⟩ : Fin 32768) = ⟨(i 0).val, (i 0).isLt⟩ := Fin.ext hi.symm
  rw [h1, e1]
  refine congrArg (· * _) (Finset.sum_congr rfl fun h _ => ?_)
  rw [h0, h2, e0]

/-- The printed index maps over the grid: the two row windows and the two result windows are at block `(t, 0)`, the
    weight's window at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 32 := lt_of_lt_of_eq t.isLt N_0

/-- Point `t`'s query block is rows `1024·t …` of the flattened query. -/
theorem blk0 (c : Dev nD) (t : Fin cfg0.N) (r h : Fin 1024) :
    iblk m c 0 t (ix2 r h) = V m c main_v0 (ix2 (⟨t.val * 1024 + r.val, by have := t_lt t; omega⟩ : Fin 32768) h) := by
  obtain ⟨e0, e1, -⟩ := idx_facts t
  show V m c main_v0 (((cfg0.win 0).blk t).view.emb (ix2 r h)) = _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * h.val = h.val; omega

/-- Point `t`'s key block is rows `1024·t …` of the flattened key. -/
theorem blk1 (c : Dev nD) (t : Fin cfg0.N) (r o : Fin 1024) :
    iblk m c 1 t (ix2 r o) = V m c main_v1 (ix2 (⟨t.val * 1024 + r.val, by have := t_lt t; omega⟩ : Fin 32768) o) := by
  obtain ⟨-, -, e0, e1, -⟩ := idx_facts t
  show V m c main_v1 (((cfg0.win 1).blk t).view.emb (ix2 r o)) = _
  refine congrArg _ (funext fun a => Fin.ext ?_)
  match a with
  | ⟨0, _⟩ => show win0_1.index t (0 : Fin 2) * 1024 + 1 * r.val = t.val * 1024 + r.val; omega
  | ⟨1, _⟩ => show win0_1.index t (1 : Fin 2) * 1024 + 1 * o.val = o.val; omega

/-- Every point's weight block is the whole transposed weight. -/
theorem blk2 (c : Dev nD) (t : Fin cfg0.N) (h o : Fin 1024) :
    iblk m c 2 t (ix2 h o) = V m c main_v3 (ix2 h o) := by
  obtain ⟨-, -, -, -, e0, e1, -⟩ := idx_facts t
  show V m c main_v3 (((cfg0.win 2).blk t).view.emb (ix2 h o)) = _
  refine congrArg _ (funext fun a => Fin.ext ?_)
  match a with
  | ⟨0, _⟩ => show win0_2.index t (0 : Fin 2) * 1024 + 1 * h.val = h.val; omega
  | ⟨1, _⟩ => show win0_2.index t (1 : Fin 2) * 1024 + 1 * o.val = o.val; omega

/-- What point `t` writes back to the first column is block `t` of `colA` of the arrays as the region finds them. -/
theorem flushedA_eq (c : Dev nD) (t : Fin cfg0.N) :
    (dats m 0 c).flushed 3 t
      = ((cfg0.win 3).blk t).view.read (Elt Ideal) (colA (V m c main_v0) (V m c main_v1) (V m c main_v3)) := by
  show (cfg0.win 3).cut (grid0.coords t) ((dats m 0 c).after 3 t) = _
  rw [after_3]
  unfold outA
  rw [View.canon_unit_zero hz]
  simp only [View.ld_unit_zero (S := S1024x1024) hz]
  obtain ⟨-, -, -, -, -, -, e0, e1, -⟩ := idx_facts t
  funext j
  show k0_pay3 (F := Ideal) (iblk m c 0 t) (iblk m c 2 t) (iblk m c 1 t) j
    = colA (V m c main_v0) (V m c main_v1) (V m c main_v3) (((cfg0.win 3).blk t).view.emb j)
  refine colA_point (iblk m c 0 t) (iblk m c 1 t) (iblk m c 2 t) (V m c main_v0) (V m c main_v1) (V m c main_v3)
    t.val (t_lt t) (blk0 m c t) (blk1 m c t) (blk2 m c t) j (j 0) (j 1) (eq_ix2 j) (((cfg0.win 3).blk t).view.emb j) ?_
  show win0_3.index t (0 : Fin 2) * 1024 + 1 * (j 0).val = t.val * 1024 + (j 0).val
  omega

/-- What point `t` writes back to the second column is block `t` of `colB`. -/
theorem flushedB_eq (c : Dev nD) (t : Fin cfg0.N) :
    (dats m 0 c).flushed 4 t
      = ((cfg0.win 4).blk t).view.read (Elt Ideal) (colB (V m c main_v0) (V m c main_v1) (V m c main_v3)) := by
  show (cfg0.win 4).cut (grid0.coords t) ((dats m 0 c).after 4 t) = _
  rw [after_4]
  unfold outB
  rw [View.canon_unit_zero hz]
  simp only [View.ld_unit_zero (S := S1024x1024) hz]
  obtain ⟨-, -, -, -, -, -, -, -, e0, e1⟩ := idx_facts t
  funext j
  show k0_pay4 (F := Ideal) (iblk m c 0 t) (iblk m c 2 t) (iblk m c 1 t) j
    = colB (V m c main_v0) (V m c main_v1) (V m c main_v3) (((cfg0.win 4).blk t).view.emb j)
  refine colB_point (iblk m c 0 t) (iblk m c 1 t) (iblk m c 2 t) (V m c main_v0) (V m c main_v1) (V m c main_v3)
    t.val (t_lt t) (blk0 m c t) (blk1 m c t) (blk2 m c t) j (j 0) (j 1) (eq_ix2 j) (((cfg0.win 4).blk t).view.emb j) ?_
  show win0_4.index t (0 : Fin 2) * 1024 + 1 * (j 0).val = t.val * 1024 + (j 0).val
  omega

/-- An index of a column is in point `t`'s block iff its row is among rows `1024·t …`. -/
theorem mem_blk3 (t : Fin cfg0.N) (i : S32768x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v4_0).slice (win0_3.rect t)).set ↔ _
  rw [View.set_slice_whole, Rect.mem_set_unit]
  exact Iff.rfl

theorem mem_blk4 (t : Fin cfg0.N) (i : S32768x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v4_1).slice (win0_4.rect t)).set ↔ _
  rw [View.set_slice_whole, Rect.mem_set_unit]
  exact Iff.rfl

/-- Every row of a column lies in the block of the point numbered by the row's block. -/
theorem coverA (i : S32768x1.Idx) : ∃ t : Fin cfg0.N, (cfg0.win 3).flush t = true ∧ i ∈ ((cfg0.win 3).blk t).view.set := by
  have hi0 : (i 0).val < 32768 := (i 0).isLt
  have hi1 : (i 1).val < 1 := (i 1).isLt
  let t : Fin cfg0.N := ⟨(i 0).val / 1024, by show (i 0).val / 1024 < grid0.N; rw [N_0]; omega⟩
  obtain ⟨-, -, -, -, -, -, e0, e1, -⟩ := idx_facts t
  have ht : t.val = (i 0).val / 1024 := rfl
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

theorem coverB (i : S32768x1.Idx) : ∃ t : Fin cfg0.N, (cfg0.win 4).flush t = true ∧ i ∈ ((cfg0.win 4).blk t).view.set := by
  have hi0 : (i 0).val < 32768 := (i 0).isLt
  have hi1 : (i 1).val < 1 := (i 1).isLt
  let t : Fin cfg0.N := ⟨(i 0).val / 1024, by show (i 0).val / 1024 < grid0.N; rw [N_0]; omega⟩
  obtain ⟨-, -, -, -, -, -, -, -, e0, e1⟩ := idx_facts t
  have ht : t.val = (i 0).val / 1024 := rfl
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-- The first column after the region. -/
theorem finalA (c : Dev nD) :
    (dats m 0 c).arrAt 3 cfg0.N = colA (V m c main_v0) (V m c main_v1) (V m c main_v3) :=
  (dats m 0 c).arrAt_eq_of_cover 3 _ (fun t _ => flushedA_eq m c t) coverA

/-- The second column after the region. -/
theorem finalB (c : Dev nD) :
    (dats m 0 c).arrAt 4 cfg0.N = colB (V m c main_v0) (V m c main_v1) (V m c main_v3) :=
  (dats m 0 c).arrAt_eq_of_cover 4 _ (fun t _ => flushedB_eq m c t) coverB

end Cert.KernelIdeal.Val

end
-- ==== Proof.HostBefore.lean ====
/-
  What the region finds in the arrays its windows read, and the two literal row tables: the host lines before it.

  The flattened query and key arrays are the arguments re-laid from [8, 4096, 1024] to [32768, 1024]; the weight the
  body multiplies by is the argument's transpose (its change of float format is the identity at the ideal values).
-/
import proofs.«136613_j42906723287547_2_alg».proof.Proof.FrameKIHost
import Idealize.ShloMosaic.Lib.StableHlo.Run
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen Cert.KernelIdeal.Fr

variable (m : (ℓ : Loc nD τ sig) → Buf (Elt Ideal) ℓ)

theorem V_v0 (c : Dev nD) :
    V m c main_v0 = shapeCast S32768x1024 (m ((c : Thread nD τ).loc main_arg0)) Facts₀.shapeCasts_S8x4096x1024_S32768x1024 := by
  show StableHlo.after hostOps0 (fun b => m (c, b)) (Proc.devRef .tc main_v0) = _
  after_results
  all_goals rfl

theorem V_v1 (c : Dev nD) :
    V m c main_v1 = shapeCast S32768x1024 (m ((c : Thread nD τ).loc main_arg1)) Facts₀.shapeCasts_S8x4096x1024_S32768x1024 := by
  show StableHlo.after hostOps0 (fun b => m (c, b)) (Proc.devRef .tc main_v1) = _
  after_results
  all_goals rfl

theorem V_v3 (c : Dev nD) :
    V m c main_v3 = transpose S1024x1024 [1, 0]
      (truncf .bf16 (m ((c : Thread nD τ).loc main_arg2) : FVec Ideal S1024x1024 .f32) Facts₀.bitsLt_bf16_f32 : FVec Ideal S1024x1024 .bf16)
      Facts₀.transposes_S1024x1024_S1024x1024_1_0 := by
  show StableHlo.after hostOps0 (fun b => m (c, b)) (Proc.devRef .tc main_v3) = _
  after_results
  all_goals rfl

/-- Row `R` of the flattened query is row `R % 4096` of batch `R / 4096`. -/
theorem V_v0_apply (c : Dev nD) (R : Fin 32768) (h : Fin 1024) :
    V m c main_v0 (ix2 R h)
      = m ((c : Thread nD τ).loc main_arg0) (ix3 (⟨R.val / 4096, by omega⟩ : Fin 8) (⟨R.val % 4096, by omega⟩ : Fin 4096) h) := by
  rw [V_v0]
  refine shapeCast_apply _ _ _ _ ?_
  show (S8x4096x1024.rowMajor (ix3 (⟨R.val / 4096, by omega⟩ : Fin 8) (⟨R.val % 4096, by omega⟩ : Fin 4096) h)).val
    = (S32768x1024.rowMajor (ix2 R h)).val
  rw [Shape.rowMajor_val_two, Shape.rowMajor_val_three]
  show (R.val / 4096 * 4096 + R.val % 4096) * 1024 + h.val = R.val * 1024 + h.val
  omega

/-- Row `R` of the flattened key is row `R % 4096` of batch `R / 4096`. -/
theorem V_v1_apply (c : Dev nD) (R : Fin 32768) (o : Fin 1024) :
    V m c main_v1 (ix2 R o)
      = m ((c : Thread nD τ).loc main_arg1) (ix3 (⟨R.val / 4096, by omega⟩ : Fin 8) (⟨R.val % 4096, by omega⟩ : Fin 4096) o) := by
  rw [V_v1]
  refine shapeCast_apply _ _ _ _ ?_
  show (S8x4096x1024.rowMajor (ix3 (⟨R.val / 4096, by omega⟩ : Fin 8) (⟨R.val % 4096, by omega⟩ : Fin 4096) o)).val
    = (S32768x1024.rowMajor (ix2 R o)).val
  rw [Shape.rowMajor_val_two, Shape.rowMajor_val_three]
  show (R.val / 4096 * 4096 + R.val % 4096) * 1024 + o.val = R.val * 1024 + o.val
  omega

/-- The weight the body multiplies by is the argument transposed. -/
theorem V_v3_apply (c : Dev nD) (h o : Fin 1024) :
    V m c main_v3 (ix2 h o) = m ((c : Thread nD τ).loc main_arg2) (ix2 o h) := by
  rw [V_v3]
  refine (transpose_apply _ _ _ (ix2 h o) (ix2 o h) fun b => ?_).trans rfl
  match b with
  | ⟨0, _⟩ => rfl
  | ⟨1, _⟩ => rfl

theorem V_c (c : Dev nD) : V m c main_c = fun i => lit0 (S24.rowMajor i) := by
  show StableHlo.after hostOps0 (fun b => m (c, b)) (Proc.devRef .tc main_c) = _
  after_results
  all_goals rfl

theorem V_c_0 (c : Dev nD) : V m c main_c_0 = fun i => lit1 (S24.rowMajor i) := by
  show StableHlo.after hostOps0 (fun b => m (c, b)) (Proc.devRef .tc main_c_0) = _
  after_results
  all_goals rfl

end Cert.KernelIdeal.Val

end
-- ==== Proof.PatchAt.lean ====
/-
  The host lines after the region, read at an index (ideal instance).

  The region leaves two columns of 32768 entries. Entry r of the first is the query row r, projected by the transposed
  weight, against the key row r - 1 — except at the first row of each block of 1024 rows, where the region read a wrong
  neighbour; entry r of the second is the same against the key row r + 1, except at the last row of each block. The host
  recomputes the 24 block-first rows that do not start a batch of 4096 rows (and the 24 block-last rows that do not end
  one) and writes them over the column, re-lays the column as [8, 4096] and keeps entries 1 … 4095 (resp. 0 … 4094) of
  each batch. Here: entry (b, j) of the result is the projected query row R against the key row R - 1 with
  R = 4096·b + j + 1 (resp. row R = 4096·b + j against the key row R + 1), whatever R is.

  The steps: a word of the table is not negative, so wrapping leaves it and reading it signed gives the row number;
  the gather of rows reads the named row; a fold of single-element writes at pairwise different places, read at one place,
  is the write that names the place if there is one and the operand otherwise; the 24 places are pairwise different because
  the table is strictly increasing (row number 1024·(i + i/3 + 1) at place i, one less for the second table); the
  recomputed entry is the sum over the output feature of the projected query row times the key row; a batch entry that is
  a multiple of 1024 and not of 4096 has a place in the table, and every other one is left to the region's column.
-/
import proofs.«136613_j42906723287547_2_alg».proof.Proof.PatchDefs
import Idealize.ShloMosaic.Lib.ValueIdx
import Idealize.ShloMosaic.Lib.Pipeline.Value
import Idealize.ShloMosaic.PureOps.Ideal.Laws

noncomputable section

open scoped BigOperators

namespace Cert.KernelIdeal.Patch

open Idealize.ShloMosaic Cert.KernelIdeal Cert.KernelIdeal.Facts₀ Idealize.ShloMosaic.ValueIdx

/-! ## Words -/

/-- A splat reads its word everywhere. -/
theorem splat24_apply (v : BitVec 32) (i : S24.Idx) : splat24 v i = v := rfl

/-- A word below 2^31 is not negative, so the wrap leaves it. -/
theorem wrap_apply_of_lt (x : IVec S24 32) (i : S24.Idx) (h : (x i).toNat < 2147483648) : wrap x i = x i := by
  show Scalar.select (IntOp.cmpi .slt (x i) 0#32) (IntOp.addi (x i) 32768#32) (x i) = x i
  have hs : IntOp.cmpi .slt (x i) 0#32 = 0#1 := by
    show BitVec.ofBool ((x i).slt 0#32) = 0#1
    have : (x i).slt 0#32 = false := by
      rw [BitVec.slt_eq_decide]
      have h1 : (x i).toInt = ((x i).toNat : Int) := BitVec.toInt_eq_toNat_of_lt (by omega)
      simp [h1]
    rw [this]; rfl
  rw [hs]
  exact select_zero _ _

/-- A word below 2^31 read signed is its value. -/
theorem toInt_of_lt (v : BitVec 32) (h : v.toNat < 2147483648) : v.toInt = (v.toNat : Int) :=
  BitVec.toInt_eq_toNat_of_lt (by omega)

example : (lit0 (5 : Fin 24)).toNat = 7168 := by decide

/-! ## The gather of rows -/

/-- The table broadcast along a unit axis reads the table. -/
theorem tableCol_apply (x : IVec S24 32) (i : Fin 24) (c : Fin 1) :
    broadcastInDim S24x1 ![0] bcast_S24_S24x1_0 x (ix2 i c) = x (ix1 i) :=
  broadcastInDim_apply _ _ _ _ (ix1 i) (fun a => match a with | ⟨0, _⟩ => rfl)

/-- The rows' gather read at `(i, o)`: the array at the row the table names, column `o`. -/
theorem rowsOf_apply (M : FVec Ideal S32768x1024 .f32) (x : IVec S24 32) (i : Fin 24) (o : Fin 1024) (r : Fin 32768)
    (hr : (x (ix1 i)).toNat = r.val) : rowsOf M x (ix2 i o) = M (ix2 r o) := by
  have hrlt : r.val < 32768 := r.isLt
  have hw : wrap x (ix1 i) = x (ix1 i) := wrap_apply_of_lt x (ix1 i) (by omega)
  unfold rowsOf Host.gather
  refine congrArg M (funext fun a => Fin.ext ?_)
  have hsi : gather_S32768x1024_S24x1_S24x1024_1_0_n_n_0_1_11024.siIdx (ix2 i o)
      ⟨List.idxOf (0 : Fin 2) gather_S32768x1024_S24x1_S24x1024_1_0_n_n_0_1_11024.startIndexMap, List.idxOf_lt_length_iff.2 (List.mem_singleton.mpr rfl)⟩
      = (ix2 i 0 : S24x1.Idx) := by
    funext b; refine Fin.ext ?_
    match b with
    | ⟨0, _⟩ => rfl
    | ⟨1, _⟩ => rfl
  match a with
  | ⟨0, _⟩ =>
    show gather_S32768x1024_S24x1_S24x1024_1_0_n_n_0_1_11024.start (ix2 i o) _ 0 + gather_S32768x1024_S24x1_S24x1024_1_0_n_n_0_1_11024.batchCoord (ix2 i o) 0 + gather_S32768x1024_S24x1_S24x1024_1_0_n_n_0_1_11024.offCoord (ix2 i o) 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32768x1024_S24x1_S24x1024_1_0_n_n_0_1_11024.startIndexMap from List.mem_singleton.mpr rfl), hsi,
      tableCol_apply, hw, toInt_of_lt _ (by omega), hr]
    show min ((r.val : Int)).toNat (32768 - 1) + 0 + 0 = r.val
    rw [Int.toNat_natCast]; omega
  | ⟨1, _⟩ =>
    show gather_S32768x1024_S24x1_S24x1024_1_0_n_n_0_1_11024.start (ix2 i o) _ 1 + gather_S32768x1024_S24x1_S24x1024_1_0_n_n_0_1_11024.batchCoord (ix2 i o) 1 + gather_S32768x1024_S24x1_S24x1024_1_0_n_n_0_1_11024.offCoord (ix2 i o) 1 = o.val
    rw [GatherDims.batchCoord_eq_zero _ _ _ List.not_mem_nil]
    unfold GatherDims.start
    rw [dif_neg (show ¬ (1 : Fin 2) ∈ gather_S32768x1024_S24x1_S24x1024_1_0_n_n_0_1_11024.startIndexMap by decide)]
    unfold GatherDims.offCoord
    rw [dif_pos (show (1 : Fin 2) ∈ gather_S32768x1024_S24x1_S24x1024_1_0_n_n_0_1_11024.sKept by decide)]
    simp only [Nat.zero_add]
    rfl

/-! ## A fold of point writes read at one place -/

/-- A fold whose steps do not touch the place `p` leaves it. -/
theorem foldl_point_miss {ι P α : Type} (step : (P → α) → ι → (P → α)) (p : P) (hit : ι → Prop)
    (hmiss : ∀ r n, ¬ hit n → step r n p = r p) :
    ∀ (l : List ι) (r : P → α), (∀ n ∈ l, ¬ hit n) → l.foldl step r p = r p
  | [], _, _ => rfl
  | a :: l, r, h => by
    rw [List.foldl_cons, foldl_point_miss step p hit hmiss l (step r a) (fun n hn => h n (List.mem_cons_of_mem _ hn)),
      hmiss r a (h a List.mem_cons_self)]

/-- A fold over a list without repeats in which exactly the step `n₀` writes the place `p` leaves that step's value there. -/
theorem foldl_point_hit {ι P α : Type} (step : (P → α) → ι → (P → α)) (p : P) (hit : ι → Prop) (v : α)
    (hmiss : ∀ r n, ¬ hit n → step r n p = r p) (n₀ : ι) (hhit : ∀ r, step r n₀ p = v) (huniq : ∀ n, hit n → n = n₀) :
    ∀ (l : List ι) (r : P → α), l.Nodup → n₀ ∈ l → l.foldl step r p = v
  | [], _, _, h => absurd h List.not_mem_nil
  | a :: l, r, hnd, hmem => by
    rw [List.foldl_cons]
    by_cases ha : a = n₀
    · subst ha
      rw [foldl_point_miss step p hit hmiss l _ (fun n hn hh => (List.nodup_cons.1 hnd).1 (huniq n hh ▸ hn)), hhit]
    · exact foldl_point_hit step p hit v hmiss n₀ hhit huniq l (step r a) (List.nodup_cons.1 hnd).2
        ((List.mem_cons.1 hmem).resolve_left (Ne.symm ha))

/-! ## The scatter that sets single elements -/

section Scatter
variable {s si u : Shape} {w : Nat} {α : Type}

/-- One step of the scatter does not touch a place that is not the update's. -/
theorem scatter_step_miss (d : ScatterDims s si u) (idx : IVec si w) (upd : u.Idx → α) (p : s.Idx) (r : s.Idx → α) (n : Fin u.numel)
    (hn : ¬ d.resultIdx? (u.rowMajor.symm n) idx = some p) :
    (match d.resultIdx? (u.rowMajor.symm n) idx with
      | some i => fun i' => if i' = i then (fun _ b => b) (r i) (upd (u.rowMajor.symm n)) else r i'
      | none => r) p = r p := by
  cases hq : d.resultIdx? (u.rowMajor.symm n) idx with
  | none => rfl
  | some i =>
    have hpi : p ≠ i := fun e => hn (by rw [hq, e])
    exact if_neg hpi

/-- A place no update lands at keeps the operand's element. -/
theorem scatter_set_miss (d : ScatterDims s si u) (x : s.Idx → α) (idx : IVec si w) (upd : u.Idx → α) (p : s.Idx)
    (h : ∀ j : u.Idx, d.resultIdx? j idx ≠ some p) : Host.scatter d (fun _ b => b) x idx upd p = x p := by
  unfold Host.scatter
  exact foldl_point_miss _ p (fun n => d.resultIdx? (u.rowMajor.symm n) idx = some p)
    (fun r n hn => scatter_step_miss d idx upd p r n hn) _ _ (fun n _ => h _)

/-- A place exactly one update lands at holds that update. -/
theorem scatter_set_hit (d : ScatterDims s si u) (x : s.Idx → α) (idx : IVec si w) (upd : u.Idx → α) (p : s.Idx) (j : u.Idx)
    (hj : d.resultIdx? j idx = some p) (huniq : ∀ j', d.resultIdx? j' idx = some p → j' = j) :
    Host.scatter d (fun _ b => b) x idx upd p = upd j := by
  unfold Host.scatter
  refine foldl_point_hit _ p (fun n => d.resultIdx? (u.rowMajor.symm n) idx = some p) (upd j)
    (fun r n hn => scatter_step_miss d idx upd p r n hn) (u.rowMajor j) ?_ ?_ _ _ (List.nodup_finRange _) (List.mem_finRange _)
  · intro r
    simp only [Equiv.symm_apply_apply, hj]
    exact if_pos trivial
  · intro n hn
    have := huniq _ hn
    rw [← this, Equiv.apply_symm_apply]

/-- An update whose start plus window coordinate is the place `p` on every axis lands at `p`. -/
theorem resultIdx?_eq_some (d : ScatterDims s si u) (j : u.Idx) (idx : IVec si w) (p : s.Idx)
    (h : ∀ a, d.start j idx a + (d.window j a : Int) = ((p a).val : Int)) : d.resultIdx? j idx = some p := by
  unfold ScatterDims.resultIdx?
  rw [dif_pos (fun a => by rw [h a]; exact ⟨Int.natCast_nonneg _, by exact_mod_cast (p a).isLt⟩)]
  refine congrArg some (funext fun a => Fin.ext ?_)
  show (d.start j idx a + (d.window j a : Int)).toNat = (p a).val
  rw [h a, Int.toNat_natCast]

end Scatter

/-! ## This scatter's positions -/

/-- The first component of position `i` is the wrapped table entry … -/
theorem spots_fst (x : IVec S24 32) (i : Fin 24) : spots x (ix2 i (0 : Fin 2) : S24x2.Idx) = wrap x (ix1 i) := by
  unfold spots
  refine (concatenate_pair_apply_left (t := S24x2) (s₁ := S24x1) (s₂ := S24x1) (1 : Fin 2) _ _ concatenates_S24x1_S24x1_S24x2_d1 (ix2 i (0 : Fin 2) : S24x2.Idx) rfl
    (ix2 i (0 : Fin 1) : S24x1.Idx) (fun b => match b with | ⟨0, _⟩ => rfl | ⟨1, _⟩ => rfl)).trans ?_
  exact tableCol_apply _ i 0

/-- … and the second is zero. -/
theorem spots_snd (x : IVec S24 32) (i : Fin 24) : spots x (ix2 i (1 : Fin 2) : S24x2.Idx) = 0#32 := by
  unfold spots
  refine (concatenate_pair_apply_right (t := S24x2) (s₁ := S24x1) (s₂ := S24x1) (1 : Fin 2) _ _ concatenates_S24x1_S24x1_S24x2_d1 (ix2 i (1 : Fin 2) : S24x2.Idx) rfl rfl
    (ix2 i (0 : Fin 1) : S24x1.Idx) (fun b hb => match b, hb with | ⟨0, _⟩, _ => rfl | ⟨1, _⟩, hb => absurd rfl hb) rfl).trans ?_
  exact (tableCol_apply _ i 0).trans rfl

/-- Update `i` lands at row `r` of the column when the table's entry `i` is `r`. -/
theorem spot_resultIdx (x : IVec S24 32) (i : Fin 24) (r : Fin 32768) (hr : (x (ix1 i)).toNat = r.val) :
    scatter_S32768x1_S24x2_S24_n_01_01_1.resultIdx? (ix1 i) (spots x) = some (ix2 r (0 : Fin 1) : S32768x1.Idx) := by
  have hrlt : r.val < 32768 := r.isLt
  have hw : wrap x (ix1 i) = x (ix1 i) := wrap_apply_of_lt x (ix1 i) (by omega)
  refine resultIdx?_eq_some _ _ _ _ (fun a => ?_)
  match a with
  | ⟨0, _⟩ =>
    have hsi : scatter_S32768x1_S24x2_S24_n_01_01_1.siIdx (ix1 i)
        ⟨List.idxOf (0 : Fin 2) scatter_S32768x1_S24x2_S24_n_01_01_1.scatterDimsToOperandDims, List.idxOf_lt_length_iff.2 (by decide)⟩
        = (ix2 i (0 : Fin 2) : S24x2.Idx) := by
      funext b; refine Fin.ext ?_
      match b with
      | ⟨0, _⟩ => rfl
      | ⟨1, _⟩ => rfl
    show scatter_S32768x1_S24x2_S24_n_01_01_1.start (ix1 i) (spots x) 0 + ((scatter_S32768x1_S24x2_S24_n_01_01_1.window (ix1 i) 0 : Nat) : Int) = (r.val : Int)
    unfold ScatterDims.start ScatterDims.window
    rw [dif_pos (show (0 : Fin 2) ∈ scatter_S32768x1_S24x2_S24_n_01_01_1.scatterDimsToOperandDims by decide),
      dif_neg (show ¬ (0 : Fin 2) ∈ scatter_S32768x1_S24x2_S24_n_01_01_1.sKept by decide), hsi, spots_fst, hw, toInt_of_lt _ (by omega), hr]
    simp
  | ⟨1, _⟩ =>
    have hsi : scatter_S32768x1_S24x2_S24_n_01_01_1.siIdx (ix1 i)
        ⟨List.idxOf (1 : Fin 2) scatter_S32768x1_S24x2_S24_n_01_01_1.scatterDimsToOperandDims, List.idxOf_lt_length_iff.2 (by decide)⟩
        = (ix2 i (1 : Fin 2) : S24x2.Idx) := by
      funext b; refine Fin.ext ?_
      match b with
      | ⟨0, _⟩ => rfl
      | ⟨1, _⟩ => rfl
    show scatter_S32768x1_S24x2_S24_n_01_01_1.start (ix1 i) (spots x) 1 + ((scatter_S32768x1_S24x2_S24_n_01_01_1.window (ix1 i) 1 : Nat) : Int) = (((0 : Fin 1).val : Nat) : Int)
    unfold ScatterDims.start ScatterDims.window
    rw [dif_pos (show (1 : Fin 2) ∈ scatter_S32768x1_S24x2_S24_n_01_01_1.scatterDimsToOperandDims by decide),
      dif_neg (show ¬ (1 : Fin 2) ∈ scatter_S32768x1_S24x2_S24_n_01_01_1.sKept by decide), hsi, spots_snd]
    decide

/-! ## The patched column read at a row -/

/-- A row the table names holds the update of its place in the table … -/
theorem patched_hit (A : FVec Ideal S32768x1 .f32) (x : IVec S24 32) (u : FVec Ideal S24 .f32) (row : Fin 24 → Fin 32768)
    (hrow : ∀ i, (x (ix1 i)).toNat = (row i).val) (hinj : Function.Injective row) (i : Fin 24) (R : Fin 32768) (hR : row i = R) :
    patched A x u (ix2 R (0 : Fin 1) : S32768x1.Idx) = u (ix1 i) := by
  subst hR
  unfold patched
  refine scatter_set_hit _ _ _ _ _ (ix1 i) (spot_resultIdx x i (row i) (hrow i)) (fun j' hj' => ?_)
  obtain ⟨i', rfl⟩ : ∃ i' : Fin 24, j' = ix1 i' := ⟨j' 0, eq_ix1 j'⟩
  rw [spot_resultIdx x i' (row i') (hrow i')] at hj'
  have e : row i' = row i := congrFun (Option.some.inj hj') 0
  rw [hinj e]

/-- … and every other row keeps the column's entry. -/
theorem patched_miss (A : FVec Ideal S32768x1 .f32) (x : IVec S24 32) (u : FVec Ideal S24 .f32) (row : Fin 24 → Fin 32768)
    (hrow : ∀ i, (x (ix1 i)).toNat = (row i).val) (R : Fin 32768) (hR : ∀ i, row i ≠ R) :
    patched A x u (ix2 R (0 : Fin 1) : S32768x1.Idx) = A (ix2 R 0) := by
  unfold patched
  refine scatter_set_miss _ _ _ _ _ (fun j' hj' => ?_)
  obtain ⟨i', rfl⟩ : ∃ i' : Fin 24, j' = ix1 i' := ⟨j' 0, eq_ix1 j'⟩
  rw [spot_resultIdx x i' (row i') (hrow i')] at hj'
  exact hR i' (congrFun (Option.some.inj hj') 0)

/-! ## The recomputed entries -/

/-- The product with the transposed weight read at `(i, o)`. -/
theorem proj_apply (X : FVec Ideal S24x1024 .bf16) (Wt : FVec Ideal S1024x1024 .bf16) (i : Fin 24) (o : Fin 1024) :
    Host.dotGeneral dot_S24x1024_S1024x1024_S24x1024_1_0_0_1_n_n none X Wt (ix2 i o : S24x1024.Idx) = ∑ h : Fin 1024, X (ix2 i h) * Wt (ix2 h o) := by
  simp only [Host.dotGeneral]
  rw [Ideal.dotGeneral_apply, ← Equiv.sum_comp (contrEquiv1 dot_S24x1024_S1024x1024_S24x1024_1_0_0_1_n_n 1024 rfl rfl).symm]
  refine Finset.sum_congr rfl fun k _ => ?_
  have hk := contrEquiv1_symm_val dot_S24x1024_S1024x1024_S24x1024_1_0_0_1_n_n 1024 rfl rfl k
  have el : dot_S24x1024_S1024x1024_S24x1024_1_0_0_1_n_n.lhsIdx (ix2 i o : S24x1024.Idx) ((contrEquiv1 dot_S24x1024_S1024x1024_S24x1024_1_0_0_1_n_n 1024 rfl rfl).symm k) = (ix2 i k : S24x1024.Idx) :=
    funext fun a => Fin.ext (by
      match a with
      | ⟨0, _⟩ =>
        show (dot_S24x1024_S1024x1024_S24x1024_1_0_0_1_n_n.lhsIdx (ix2 i o : S24x1024.Idx) _ 0).val = i.val
        unfold DotDims.lhsIdx
        rw [dif_neg (show ¬(0 : Fin 2) ∈ dot_S24x1024_S1024x1024_S24x1024_1_0_0_1_n_n.lhsBatch by decide), dif_pos (show (0 : Fin 2) ∈ dot_S24x1024_S1024x1024_S24x1024_1_0_0_1_n_n.lhsNonContracting by decide)]
        rfl
      | ⟨1, _⟩ => exact (dot_S24x1024_S1024x1024_S24x1024_1_0_0_1_n_n.lhsIdx_val_of_single rfl _ _).trans hk)
  have er : dot_S24x1024_S1024x1024_S24x1024_1_0_0_1_n_n.rhsIdx (ix2 i o : S24x1024.Idx) ((contrEquiv1 dot_S24x1024_S1024x1024_S24x1024_1_0_0_1_n_n 1024 rfl rfl).symm k) = (ix2 k o : S1024x1024.Idx) :=
    funext fun a => Fin.ext (by
      match a with
      | ⟨0, _⟩ => exact (dot_S24x1024_S1024x1024_S24x1024_1_0_0_1_n_n.rhsIdx_val_of_single rfl _ _).trans hk
      | ⟨1, _⟩ =>
        show (dot_S24x1024_S1024x1024_S24x1024_1_0_0_1_n_n.rhsIdx (ix2 i o : S24x1024.Idx) _ 1).val = o.val
        unfold DotDims.rhsIdx
        rw [dif_neg (show ¬(1 : Fin 2) ∈ dot_S24x1024_S1024x1024_S24x1024_1_0_0_1_n_n.rhsBatch by decide), dif_pos (show (1 : Fin 2) ∈ dot_S24x1024_S1024x1024_S24x1024_1_0_0_1_n_n.rhsNonContracting by decide)]
        rfl)
  rw [el, er]

/-- Entry `i` of the recomputed entries: the query row the first table names, projected, against the key row the second names. -/
theorem redo_apply (Q K : FVec Ideal S32768x1024 .f32) (Wt : FVec Ideal S1024x1024 .bf16) (x y : IVec S24 32) (i : Fin 24)
    (R R' : Fin 32768) (hx : (x (ix1 i)).toNat = R.val) (hy : (y (ix1 i)).toNat = R'.val) :
    redo Q K Wt x y (ix1 i) = rowdot Q K Wt R R' := by
  unfold redo
  generalize hP : mulf (Host.dotGeneral dot_S24x1024_S1024x1024_S24x1024_1_0_0_1_n_n none (truncf .bf16 (rowsOf Q x) bitsLt_bf16_f32) Wt) (rowsOf K y) = P
  simp only [Host.reduceAdd, Ideal.hostReduceAdd_def]
  rw [Ideal.hostReduceAdd_single reducesTo_S24x1024_S24_d1 (by decide),
    show constant (F := Ideal) S_ .f32 0x00000000#32 (Shape.Idx.first h_S_) = (0 : EReal) from Ideal.ofBits_zero_f32, zero_add]
  unfold rowdot
  refine Finset.sum_congr rfl fun (o : Fin 1024) _ => ?_
  refine (congrArg P (funext fun a => Fin.ext (by match a with | ⟨0, _⟩ => rfl | ⟨1, _⟩ => rfl)) :
    P _ = P (ix2 i o : S24x1024.Idx)).trans ?_
  rw [← hP]
  show Host.dotGeneral dot_S24x1024_S1024x1024_S24x1024_1_0_0_1_n_n none (truncf .bf16 (rowsOf Q x) bitsLt_bf16_f32) Wt (ix2 i o : S24x1024.Idx)
    * rowsOf K y (ix2 i o) = _
  refine (congrArg₂ (· * ·) (proj_apply _ Wt i o) (rowsOf_apply K y i o R' hy)).trans ?_
  refine congrArg (· * _) (Finset.sum_congr rfl fun (h : Fin 1024) _ => ?_)
  exact congrArg (· * _) (rowsOf_apply Q x i h R hx)

/-! ## The two tables -/

/-- The block-first rows that do not start a batch, by place in the table. -/
def firstRow (i : Fin 24) : Fin 32768 := ⟨1024 * (i.val + i.val / 3 + 1), by have := i.isLt; omega⟩
/-- The block-last rows that do not end a batch, by place in the table. -/
def lastRow (i : Fin 24) : Fin 32768 := ⟨1024 * (i.val + i.val / 3 + 1) - 1, by have := i.isLt; omega⟩

theorem lit0_toNat : ∀ i : Fin 24, (lit0 i).toNat = 1024 * (i.val + i.val / 3 + 1) := by decide
theorem lit0_pred_toNat : ∀ i : Fin 24, (IntOp.subi (lit0 i) 1#32).toNat = 1024 * (i.val + i.val / 3 + 1) - 1 := by decide
theorem lit1_toNat : ∀ i : Fin 24, (lit1 i).toNat = 1024 * (i.val + i.val / 3 + 1) - 1 := by decide
theorem lit1_succ_toNat : ∀ i : Fin 24, (IntOp.addi (lit1 i) 1#32).toNat = 1024 * (i.val + i.val / 3 + 1) - 1 + 1 := by decide

/-- A literal table laid along the 24 places reads its entry. -/
theorem table_at (T : Fin 24 → BitVec 32) (i : Fin 24) : (fun k : S24.Idx => T (S24.rowMajor k)) (ix1 i) = T i :=
  congrArg T (Fin.ext (Shape.rowMajor_val_one _))

/-! ## The two arrays read at an index -/

/-- Entry `(b, j)` of the first array: row `4096·b + j + 1` against the key row before it. At a block-first row the
    scatter has written the recomputed entry; at every other row the column already held it. -/
theorem leftOf_apply (A : FVec Ideal S32768x1 .f32) (Q K : FVec Ideal S32768x1024 .f32) (Wt : FVec Ideal S1024x1024 .bf16)
    (hA : ∀ R : Fin 32768, R.val % 1024 ≠ 0 →
      A (ValueIdx.ix2 R 0) = rowdot Q K Wt R ⟨R.val - 1, by have := R.isLt; omega⟩)
    (b : Fin 8) (j : Fin 4095) :
    leftOf A Q K Wt (fun i => lit0 (S24.rowMajor i)) (ValueIdx.ix2 b j)
      = rowdot Q K Wt ⟨b.val * 4096 + j.val + 1, by have := b.isLt; have := j.isLt; omega⟩
          ⟨b.val * 4096 + j.val, by have := b.isLt; have := j.isLt; omega⟩ := by
  have hb := b.isLt
  have hj := j.isLt
  have hrow : ∀ i : Fin 24, ((fun k : S24.Idx => lit0 (S24.rowMajor k)) (ix1 i)).toNat = (firstRow i).val := fun i => by
    rw [table_at lit0 i]; exact lit0_toNat i
  have hnb : ∀ i : Fin 24,
      (subi (fun k : S24.Idx => lit0 (S24.rowMajor k)) (splat24 1#32) (ix1 i)).toNat = 1024 * (i.val + i.val / 3 + 1) - 1 :=
    fun i => by
      show (IntOp.subi ((fun k : S24.Idx => lit0 (S24.rowMajor k)) (ix1 i)) 1#32).toNat = _
      rw [table_at lit0 i]; exact lit0_pred_toNat i
  have hinj : Function.Injective firstRow := fun i i' h => by
    have hv : 1024 * (i.val + i.val / 3 + 1) = 1024 * (i'.val + i'.val / 3 + 1) := congrArg Fin.val h
    exact Fin.ext (by omega)
  unfold leftOf
  refine (extractStridedSlice_apply ![0, 1] _ slices_S8x4096_S8x4095_0_1 (ix2 b j)
    (ix2 b (⟨1 + j.val, by omega⟩ : Fin 4096) : S8x4096.Idx)
    (fun a => match a with
      | ⟨0, _⟩ => by show b.val = 0 + b.val; omega
      | ⟨1, _⟩ => by show 1 + j.val = 1 + j.val; rfl)).trans ?_
  refine (shapeCast_apply _ shapeCasts_S32768x1_S8x4096 _
    (ix2 (⟨b.val * 4096 + j.val + 1, by omega⟩ : Fin 32768) (0 : Fin 1) : S32768x1.Idx)
    (by rw [Shape.rowMajor_val_two, Shape.rowMajor_val_two]
        show (b.val * 4096 + j.val + 1) * 1 + 0 = b.val * 4096 + (1 + j.val); omega)).trans ?_
  by_cases hm : (b.val * 4096 + j.val + 1) % 1024 = 0
  · have key : ∀ n : Nat, n = 3 * b.val + (j.val + 1) / 1024 - 1 →
        n < 24 ∧ 1024 * (n + n / 3 + 1) = b.val * 4096 + j.val + 1 := by
      intro n hn; omega
    obtain ⟨hn24, hnv⟩ := key _ rfl
    obtain ⟨i, hi⟩ : ∃ i : Fin 24, firstRow i = ⟨b.val * 4096 + j.val + 1, by omega⟩ := ⟨⟨_, hn24⟩, Fin.ext hnv⟩
    have hiv : 1024 * (i.val + i.val / 3 + 1) = b.val * 4096 + j.val + 1 := congrArg Fin.val hi
    refine (patched_hit A _ _ firstRow hrow hinj i _ hi).trans ?_
    exact redo_apply Q K Wt _ _ i _ _ ((hrow i).trans hiv)
      ((hnb i).trans (by show 1024 * (i.val + i.val / 3 + 1) - 1 = b.val * 4096 + j.val; omega))
  · refine (patched_miss A _ _ firstRow hrow _ (fun i h => hm ?_)).trans ?_
    · have hv : 1024 * (i.val + i.val / 3 + 1) = b.val * 4096 + j.val + 1 := congrArg Fin.val h
      omega
    · exact hA ⟨b.val * 4096 + j.val + 1, by omega⟩ hm

/-- Entry `(b, j)` of the second array: row `4096·b + j` against the key row after it. At a block-last row the
    scatter has written the recomputed entry; at every other row the column already held it. -/
theorem rightOf_apply (B : FVec Ideal S32768x1 .f32) (Q K : FVec Ideal S32768x1024 .f32) (Wt : FVec Ideal S1024x1024 .bf16)
    (hB : ∀ (R : Fin 32768) (h : R.val % 1024 ≠ 1023),
      B (ValueIdx.ix2 R 0) = rowdot Q K Wt R ⟨R.val + 1, by have := R.isLt; omega⟩)
    (b : Fin 8) (j : Fin 4095) :
    rightOf B Q K Wt (fun i => lit1 (S24.rowMajor i)) (ValueIdx.ix2 b j)
      = rowdot Q K Wt ⟨b.val * 4096 + j.val, by have := b.isLt; have := j.isLt; omega⟩
          ⟨b.val * 4096 + j.val + 1, by have := b.isLt; have := j.isLt; omega⟩ := by
  have hb := b.isLt
  have hj := j.isLt
  have hrow : ∀ i : Fin 24, ((fun k : S24.Idx => lit1 (S24.rowMajor k)) (ix1 i)).toNat = (lastRow i).val := fun i => by
    rw [table_at lit1 i]; exact lit1_toNat i
  have hnb : ∀ i : Fin 24,
      (addi (fun k : S24.Idx => lit1 (S24.rowMajor k)) (splat24 1#32) (ix1 i)).toNat = 1024 * (i.val + i.val / 3 + 1) - 1 + 1 :=
    fun i => by
      show (IntOp.addi ((fun k : S24.Idx => lit1 (S24.rowMajor k)) (ix1 i)) 1#32).toNat = _
      rw [table_at lit1 i]; exact lit1_succ_toNat i
  have hinj : Function.Injective lastRow := fun i i' h => by
    have hv : 1024 * (i.val + i.val / 3 + 1) - 1 = 1024 * (i'.val + i'.val / 3 + 1) - 1 := congrArg Fin.val h
    exact Fin.ext (by omega)
  unfold rightOf
  refine (extractStridedSlice_apply ![0, 0] _ slices_S8x4096_S8x4095_0_0 (ix2 b j)
    (ix2 b (⟨j.val, by omega⟩ : Fin 4096) : S8x4096.Idx)
    (fun a => match a with
      | ⟨0, _⟩ => by show b.val = 0 + b.val; omega
      | ⟨1, _⟩ => by show j.val = 0 + j.val; omega)).trans ?_
  refine (shapeCast_apply _ shapeCasts_S32768x1_S8x4096 _
    (ix2 (⟨b.val * 4096 + j.val, by omega⟩ : Fin 32768) (0 : Fin 1) : S32768x1.Idx)
    (by rw [Shape.rowMajor_val_two, Shape.rowMajor_val_two]
        show (b.val * 4096 + j.val) * 1 + 0 = b.val * 4096 + j.val; omega)).trans ?_
  by_cases hm : (b.val * 4096 + j.val) % 1024 = 1023
  · have key : ∀ n : Nat, n = 3 * b.val + j.val / 1024 →
        n < 24 ∧ 1024 * (n + n / 3 + 1) - 1 = b.val * 4096 + j.val := by
      intro n hn; omega
    obtain ⟨hn24, hnv⟩ := key _ rfl
    obtain ⟨i, hi⟩ : ∃ i : Fin 24, lastRow i = ⟨b.val * 4096 + j.val, by omega⟩ := ⟨⟨_, hn24⟩, Fin.ext hnv⟩
    have hiv : 1024 * (i.val + i.val / 3 + 1) - 1 = b.val * 4096 + j.val := congrArg Fin.val hi
    refine (patched_hit B _ _ lastRow hrow hinj i _ hi).trans ?_
    exact redo_apply Q K Wt _ _ i _ _ ((hrow i).trans hiv)
      ((hnb i).trans (by show 1024 * (i.val + i.val / 3 + 1) - 1 + 1 = b.val * 4096 + j.val + 1; omega))
  · refine (patched_miss B _ _ lastRow hrow _ (fun i h => hm ?_)).trans ?_
    · have hv : 1024 * (i.val + i.val / 3 + 1) - 1 = b.val * 4096 + j.val := congrArg Fin.val h
      have := i.isLt
      omega
    · exact hB ⟨b.val * 4096 + j.val, by omega⟩ hm

end Cert.KernelIdeal.Patch

end
-- ==== Proof.TailRun.lean ====
/-
  The host lines after the region, run in order from any contents of the buffers.

  What the last buffer holds at the end depends on the contents before only through seven of them: the region's two
  result columns, the two flattened inputs, the transposed weight and the two literal tables of rows.  Reading the
  lines back from the last one, each buffer is the line's operation applied to the buffers it reads; the lines up to
  the two cuts compose to the two patched off-diagonal arrays, and the lines after them are, operation for
  operation, the specification's tail.
-/
import proofs.«136613_j42906723287547_2_alg».proof.Proof.Gen.KernelIdeal.Launch
import proofs.«136613_j42906723287547_2_alg».proof.Proof.PatchDefs
import proofs.«136613_j42906723287547_2_alg».proof.Proof.Spec
import Idealize.ShloMosaic.Lib.StableHlo.Run

noncomputable section

namespace Cert.KernelIdeal.Patch

open Idealize.ShloMosaic Idealize.ShloMosaic.StableHlo Cert.KernelIdeal

/-- Two arrays joined along an axis, with the arrays as separate arguments (the library's form takes a list of
    arrays, each paired with its shape, and a proof about that list). -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A join of two arrays is `join2` of them. -/
theorem concatenate_pair {α : Type} (t : Shape) (a : Fin t.rank) (s₁ s₂ : Shape) (h : Shape.Concatenates [s₁, s₂] t a)
    (x : s₁.Idx → α) (y : s₂.Idx → α) :
    concatenate t a [⟨s₁, x⟩, ⟨s₂, y⟩] h = join2 t a s₁ s₂ h x y := rfl

set_option maxRecDepth 8192 in
set_option maxHeartbeats 4000000 in
/-- After the 119 lines, the result buffer holds the tail of the two patched off-diagonal arrays.  Each line's
    result is read at its own buffer as the line's operation of the buffers it reads, and at any other buffer as
    what was there before; a join is first restated with its two arrays as separate arguments, so that the arrays
    under it are read in the same way.  Both sides are then the same composition of operations. -/
theorem tail_run (W : Valuation τ sig (Elt Ideal)) :
    StableHlo.after (Cert.KernelIdeal.Gen.hostOps1 (F := Ideal)) W (Proc.devRef .tc main_v99)
      = Cert.Spec.tail
          (leftOf (W (Proc.devRef .tc main_v4_0)) (W (Proc.devRef .tc main_v0)) (W (Proc.devRef .tc main_v1)) (W (Proc.devRef .tc main_v3)) (W (Proc.devRef .tc main_c)))
          (rightOf (W (Proc.devRef .tc main_v4_1)) (W (Proc.devRef .tc main_v0)) (W (Proc.devRef .tc main_v1)) (W (Proc.devRef .tc main_v3)) (W (Proc.devRef .tc main_c_0))) := by
  unfold Cert.KernelIdeal.Gen.hostOps1
  simp (disch := decide) only [after_cons, after_nil,
      nullary_result', unary_result', binary_result', ternary_result', reshape_result',
      nullary_result_ne', unary_result_ne', binary_result_ne', ternary_result_ne', reshape_result_ne', concatenate_pair]
  unfold Cert.Spec.tail Cert.Spec.finish Cert.Spec.probs Cert.Spec.pairs leftOf rightOf patched spots redo rowsOf wrap
    splat24 join2
  rfl

end Cert.KernelIdeal.Patch

end
-- ==== Proof.Bridge.lean ====
/-
  The idealized kernel's result, from the frame run to the common function.

  After the run the result buffer holds the 119 host lines after the region applied to the region's exit contents:
  the two columns at what the region left (each the projected row against the cyclically neighbouring key row inside its
  block of 1024 rows), every other buffer as the region found it. The patch rewrites exactly the rows where "cyclically
  neighbouring inside the block" differs from "neighbouring" and that are used, so the two off-diagonal arrays the
  lines go on with are `left` and `right` of the three arguments, and what follows is the common `tail`.
-/
import proofs.«136613_j42906723287547_2_alg».proof.Proof.FrameKI
import proofs.«136613_j42906723287547_2_alg».proof.Proof.RegionOut
import proofs.«136613_j42906723287547_2_alg».proof.Proof.HostBefore
import proofs.«136613_j42906723287547_2_alg».proof.Proof.PatchAt
import proofs.«136613_j42906723287547_2_alg».proof.Proof.TailRun
import proofs.«136613_j42906723287547_2_alg».proof.Proof.SpecArr

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr Cert.KernelIdeal.Patch

variable (m : (ℓ : Loc nD τ sig) → Buf (Elt Ideal) ℓ)

/-- The query argument by coordinates. -/
abbrev qOf (c : Dev nD) : Fin 8 → Fin 4096 → Fin 1024 → EReal := fun b s h => m ((c : Thread nD τ).loc main_arg0) (ix3 b s h)
/-- The key argument by coordinates. -/
abbrev kOf (c : Dev nD) : Fin 8 → Fin 4096 → Fin 1024 → EReal := fun b s h => m ((c : Thread nD τ).loc main_arg1) (ix3 b s h)
/-- The weight argument by coordinates. -/
abbrev wOf (c : Dev nD) : Fin 1024 → Fin 1024 → EReal := fun o h => m ((c : Thread nD τ).loc main_arg2) (ix2 o h)

/-- An array read at two spellings of one index. -/
theorem at_ix3 (f : (⟨3, ![8, 4096, 1024]⟩ : Shape).Idx → EReal) (b b' : Fin 8) (s s' : Fin 4096) (h : Fin 1024)
    (hb : b.val = b'.val) (hs : s.val = s'.val) : f (ix3 b s h) = f (ix3 b' s' h) := by
  obtain rfl := Fin.ext hb
  obtain rfl := Fin.ext hs
  rfl

/-- A flattened row `4096·b + s` against a flattened row `4096·b + s'`, through the arrays as the region finds them,
    is the projected row `(b, s)` against the key row `(b, s')`. -/
theorem rowdot_args (c : Dev nD) (b : Fin 8) (s s' : Fin 4096) (R R' : Fin 32768)
    (hR : R.val = b.val * 4096 + s.val) (hR' : R'.val = b.val * 4096 + s'.val) :
    rowdot (V m c main_v0) (V m c main_v1) (V m c main_v3) R R'
      = ∑ o : Fin 1024, Cert.Spec.inter (qOf m c) (wOf m c) b s o * kOf m c b s' o := by
  have hs : s.val < 4096 := s.isLt
  have hs' : s'.val < 4096 := s'.isLt
  unfold rowdot Cert.Spec.inter
  refine Finset.sum_congr rfl fun o _ => ?_
  have ek : V m c main_v1 (ix2 R' o) = kOf m c b s' o :=
    (V_v1_apply m c R' o).trans (at_ix3 _ _ _ _ _ _ (by show R'.val / 4096 = b.val; omega) (by show R'.val % 4096 = s'.val; omega))
  rw [ek]
  refine congrArg (· * _) (Finset.sum_congr rfl fun h _ => ?_)
  have eq : V m c main_v0 (ix2 R h) = qOf m c b s h :=
    (V_v0_apply m c R h).trans (at_ix3 _ _ _ _ _ _ (by show R.val / 4096 = b.val; omega) (by show R.val % 4096 = s.val; omega))
  rw [eq, V_v3_apply]

/-- The region's exit contents: the arrays at what the proof data say, the rest as found. -/
abbrev exitVal (c : Dev nD) : Valuation τ sig (Elt Ideal) :=
  Pipeline.withArrays (cfgs 0).spec c (V0 m c) fun w => (dats m 0 c).arrAt w (cfgs 0).N

theorem exit_v4_0 (c : Dev nD) : exitVal m c (Proc.devRef .tc main_v4_0) = colA (V m c main_v0) (V m c main_v1) (V m c main_v3) :=
  (Pipeline.withArrays_arr spec0 launch0.win.arr_inj c _ _ 3).trans (finalA m c)
theorem exit_v4_1 (c : Dev nD) : exitVal m c (Proc.devRef .tc main_v4_1) = colB (V m c main_v0) (V m c main_v1) (V m c main_v3) :=
  (Pipeline.withArrays_arr spec0 launch0.win.arr_inj c _ _ 4).trans (finalB m c)
theorem exit_v0 (c : Dev nD) : exitVal m c (Proc.devRef .tc main_v0) = V m c main_v0 :=
  (Pipeline.withArrays_arr spec0 launch0.win.arr_inj c _ _ 0).trans (((dats m 0 c).arrAt_in 0 rfl _).trans (A_eq m c 0))
theorem exit_v1 (c : Dev nD) : exitVal m c (Proc.devRef .tc main_v1) = V m c main_v1 :=
  (Pipeline.withArrays_arr spec0 launch0.win.arr_inj c _ _ 1).trans (((dats m 0 c).arrAt_in 1 rfl _).trans (A_eq m c 1))
theorem exit_v3 (c : Dev nD) : exitVal m c (Proc.devRef .tc main_v3) = V m c main_v3 :=
  (Pipeline.withArrays_arr spec0 launch0.win.arr_inj c _ _ 2).trans (((dats m 0 c).arrAt_in 2 rfl _).trans (A_eq m c 2))
theorem exit_c (c : Dev nD) : exitVal m c (Proc.devRef .tc main_c) = fun i => lit0 (S24.rowMajor i) :=
  (Pipeline.withArrays_of_ne _ c (V0 m c) _ main_c (by exact (by decide : ∀ w, Pipeline.arrRef spec0 w ≠ main_c))).trans (V_c m c)
theorem exit_c_0 (c : Dev nD) : exitVal m c (Proc.devRef .tc main_c_0) = fun i => lit1 (S24.rowMajor i) :=
  (Pipeline.withArrays_of_ne _ c (V0 m c) _ main_c_0 (by exact (by decide : ∀ w, Pipeline.arrRef spec0 w ≠ main_c_0))).trans (V_c_0 m c)

/-- The first off-diagonal array after the patch. -/
theorem left_value (c : Dev nD) :
    leftOf (colA (V m c main_v0) (V m c main_v1) (V m c main_v3)) (V m c main_v0) (V m c main_v1) (V m c main_v3)
        (fun i => lit0 (S24.rowMajor i))
      = Cert.Spec.leftArr (qOf m c) (kOf m c) (wOf m c) := by
  funext i
  rw [eq_ix2 i]
  refine (leftOf_apply _ _ _ _ (fun R hR => ?_) (i 0) (i 1)).trans ?_
  · show rowdot _ _ _ ⟨R.val, _⟩ (prevIn ⟨R.val, _⟩) = _
    refine congrArg (rowdot _ _ _ _) (Fin.ext ?_)
    show R.val / 1024 * 1024 + (R.val % 1024 + 1023) % 1024 = R.val - 1
    omega
  · have h0 : ((i 0 : Fin 8)).val < 8 := (i 0).isLt
    have h1 : ((i 1 : Fin 4095)).val < 4095 := (i 1).isLt
    exact rowdot_args m c (i 0) ⟨(i 1).val + 1, by omega⟩ ⟨(i 1).val, by omega⟩ _ _
      (show (i 0).val * 4096 + (i 1).val + 1 = (i 0).val * 4096 + ((i 1).val + 1) by omega)
      (show (i 0).val * 4096 + (i 1).val = (i 0).val * 4096 + (i 1).val from rfl)

/-- The second off-diagonal array after the patch. -/
theorem right_value (c : Dev nD) :
    rightOf (colB (V m c main_v0) (V m c main_v1) (V m c main_v3)) (V m c main_v0) (V m c main_v1) (V m c main_v3)
        (fun i => lit1 (S24.rowMajor i))
      = Cert.Spec.rightArr (qOf m c) (kOf m c) (wOf m c) := by
  funext i
  rw [eq_ix2 i]
  refine (rightOf_apply _ _ _ _ (fun R hR => ?_) (i 0) (i 1)).trans ?_
  · show rowdot _ _ _ ⟨R.val, _⟩ (nextIn ⟨R.val, _⟩) = _
    refine congrArg (rowdot _ _ _ _) (Fin.ext ?_)
    show R.val / 1024 * 1024 + (R.val % 1024 + 1) % 1024 = R.val + 1
    omega
  · have h0 : ((i 0 : Fin 8)).val < 8 := (i 0).isLt
    have h1 : ((i 1 : Fin 4095)).val < 4095 := (i 1).isLt
    exact rowdot_args m c (i 0) ⟨(i 1).val, by omega⟩ ⟨(i 1).val + 1, by omega⟩ _ _
      (show (i 0).val * 4096 + (i 1).val = (i 0).val * 4096 + (i 1).val from rfl)
      (show (i 0).val * 4096 + (i 1).val + 1 = (i 0).val * 4096 + ((i 1).val + 1) by omega)

/-- THE RESULT of the idealized kernel's run: the common tail of `left` and `right` of the arguments. -/
theorem kernel_value (c : Dev nD) :
    Pipeline.afterTail₀ cfgs (dats m) 0 (V0 m) [hostOps1] c main_v99
      = Cert.Spec.tail (Cert.Spec.leftArr (qOf m c) (kOf m c) (wOf m c)) (Cert.Spec.rightArr (qOf m c) (kOf m c) (wOf m c)) := by
  unfold Pipeline.afterTail₀
  show StableHlo.after (List.flatten [hostOps1]) (exitVal m c) (Proc.devRef .tc main_v99) = _
  rw [show (List.flatten [hostOps1 (F := Ideal)]) = hostOps1 from by simp only [List.flatten_cons, List.flatten_nil, List.append_nil]]
  rw [tail_run, exit_v4_0, exit_v4_1, exit_v0, exit_v1, exit_v3, exit_c, exit_c_0, left_value, right_value]

end Cert.KernelIdeal.Val

end
-- ==== Proof.lean ====
/-
  Both programs compute, at the ideal values, one function of the three arguments.

  From query q[b,s,h], key k[b,s,h] and weight w[o,h]: the projected rows inter[b,s,o] = sum over h of q[b,s,h]·w[o,h];
  the two off-diagonals left[b,j] = < inter[b,j+1,·], k[b,j,·] > and right[b,j] = < inter[b,j,·], k[b,j+1,·] >; then a
  two-way softmax of the pairs (left[b,j], right[b,j+1]), the product of neighbouring probabilities, a square root, a
  logarithm, the sum over j and an exponential (the common tail, Proof/Spec.lean).

  The reference takes the slices of an einsum directly (Proof/RefSide.lean). The kernel flattens the rows, computes
  each row's two inner products in ONE region of 32 blocks of 1024 rows — the neighbouring key row found by rotating the
  key block, hence cyclically inside the block (Proof/Payload.lean, Proof/RegionOut.lean) — and repairs on the host
  the 24 + 24 used rows at block edges where the cyclic neighbour is not the neighbour (Proof/PatchAt.lean); the rows at
  batch edges are never used. After the repair the two arrays are left and right (Proof/Bridge.lean) and the rest of
  the kernel's host lines is the common tail (Proof/TailRun.lean). Sums are finite sums in the extended reals in the
  same order of factors on both sides, so no finiteness of the inputs is needed.

  The frames: the reference's is its run with the result dropped; the kernel's two are the frame run of the one region
  with its host lines before and after (Proof/FrameK.lean at the word level, Proof/FrameKI.lean at the ideal values).
-/
import proofs.«136613_j42906723287547_2_alg».proof.Defs
import proofs.«136613_j42906723287547_2_alg».proof.Proof.Gen.Kernel
import proofs.«136613_j42906723287547_2_alg».proof.Proof.Gen.Kernel.Skeleton
import proofs.«136613_j42906723287547_2_alg».proof.Proof.Gen.Kernel.Launch
import proofs.«136613_j42906723287547_2_alg».proof.Proof.Gen.Kernel.Points
import proofs.«136613_j42906723287547_2_alg».proof.Proof.Gen.KernelIdeal
import proofs.«136613_j42906723287547_2_alg».proof.Proof.Gen.KernelIdeal.Skeleton
import proofs.«136613_j42906723287547_2_alg».proof.Proof.Gen.KernelIdeal.Launch
import proofs.«136613_j42906723287547_2_alg».proof.Proof.Gen.KernelIdeal.Points
import proofs.«136613_j42906723287547_2_alg».proof.Proof.Gen.ReferenceIdeal
import proofs.«136613_j42906723287547_2_alg».proof.Proof.Gen.Pre_finite_inputs
import proofs.«136613_j42906723287547_2_alg».proof.Proof.Gen.ReferenceIdeal.Run
import proofs.«136613_j42906723287547_2_alg».proof.Proof.Gen.ReferenceIdeal.Read
import proofs.«136613_j42906723287547_2_alg».proof.Proof.FrameK
import proofs.«136613_j42906723287547_2_alg».proof.Proof.FrameKI
import proofs.«136613_j42906723287547_2_alg».proof.Proof.RefSide
import proofs.«136613_j42906723287547_2_alg».proof.Proof.SpecArr
import proofs.«136613_j42906723287547_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result is the common tail of `left` and `right` of its arguments. -/
theorem reference_value (x0 x1 : (⟨Cert.ReferenceIdeal.S8x4096x1024, .f32⟩ : BufTy).Contents (Elt Ideal))
    (x2 : (⟨Cert.ReferenceIdeal.S1024x1024, .f32⟩ : BufTy).Contents (Elt Ideal)) :
    Cert.ReferenceIdeal.Read.val_main_v37 (F := Ideal) x0 x1 x2
      = Cert.Spec.tail
          (Cert.Spec.leftArr (fun b s h => x0 (ix3 b s h)) (fun b s h => x1 (ix3 b s h)) (fun o h => x2 (ix2 o h)))
          (Cert.Spec.rightArr (fun b s h => x0 (ix3 b s h)) (fun b s h => x1 (ix3 b s h)) (fun o h => x2 (ix2 o h))) := by
  rw [Cert.ReferenceIdeal.RefValue.result_eq]
  have hl : Cert.ReferenceIdeal.Read.val_main_v4 (F := Ideal) x0 x1 x2
      = Cert.Spec.leftArr (fun b s h => x0 (ix3 b s h)) (fun b s h => x1 (ix3 b s h)) (fun o h => x2 (ix2 o h)) := by
    funext i
    rw [eq_ix2 i]
    exact Cert.ReferenceIdeal.RefValue.left_eq x0 x1 x2 (i 0) (i 1)
  have hr : Cert.ReferenceIdeal.Read.val_main_v8 (F := Ideal) x0 x1 x2
      = Cert.Spec.rightArr (fun b s h => x0 (ix3 b s h)) (fun b s h => x1 (ix3 b s h)) (fun o h => x2 (ix2 o h)) := by
    funext i
    rw [eq_ix2 i]
    exact Cert.ReferenceIdeal.RefValue.right_eq x0 x1 x2 (i 0) (i 1)
  rw [hl, hr]

theorem algebraic : Cert.algebraic_KernelIdeal_ReferenceIdeal := by
  intro m ρ m' ρ' _ hagree
  refine ⟨fun c => Cert.Spec.tail
      (Cert.Spec.leftArr (Cert.KernelIdeal.Val.qOf m c) (Cert.KernelIdeal.Val.kOf m c) (Cert.KernelIdeal.Val.wOf m c))
      (Cert.Spec.rightArr (Cert.KernelIdeal.Val.qOf m c) (Cert.KernelIdeal.Val.kOf m c) (Cert.KernelIdeal.Val.wOf m c)), ?_, ?_⟩
  · refine (θ_run Cert.KernelIdeal.defs _ _).mono (fun r h c => ⟨?_, ?_, ?_, ?_⟩) (Cert.KernelIdeal.Fr.run_main (F := Ideal) m ρ)
    · exact ((h c).2 Cert.KernelIdeal.main_v99 (Pipeline.mem_restRefs_of Cert.KernelIdeal.main_v99 (by decide) (by decide))).trans
        (Cert.KernelIdeal.Val.kernel_value m c)
    · exact ((h c).2 Cert.KernelIdeal.main_arg0 (Pipeline.mem_restRefs_of Cert.KernelIdeal.main_arg0 (by decide) (by decide))).trans
        (Cert.KernelIdeal.Fr.W_main_arg0 m (Cert.KernelIdeal.Fr.dats m) c)
    · exact ((h c).2 Cert.KernelIdeal.main_arg1 (Pipeline.mem_restRefs_of Cert.KernelIdeal.main_arg1 (by decide) (by decide))).trans
        (Cert.KernelIdeal.Fr.W_main_arg1 m (Cert.KernelIdeal.Fr.dats m) c)
    · exact ((h c).2 Cert.KernelIdeal.main_arg2 (Pipeline.mem_restRefs_of Cert.KernelIdeal.main_arg2 (by decide) (by decide))).trans
        (Cert.KernelIdeal.Fr.W_main_arg2 m (Cert.KernelIdeal.Fr.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, reference_value, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
